-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x200 : Shape := ⟨2, ![32768, 200]⟩
abbrev S32768x10x200 : Shape := ⟨3, ![32768, 10, 200]⟩
abbrev S200x100 : Shape := ⟨2, ![200, 100]⟩
abbrev S100 : Shape := ⟨1, ![100]⟩
abbrev S100x100 : Shape := ⟨2, ![100, 100]⟩
abbrev S100x200 : Shape := ⟨2, ![100, 200]⟩
abbrev S200 : Shape := ⟨1, ![200]⟩
abbrev S200x2 : Shape := ⟨2, ![200, 2]⟩
abbrev S2 : Shape := ⟨1, ![2]⟩
abbrev S_ : Shape := ⟨0, ![]⟩

class Facts : Prop where
  bcast_S_S32768x200 : S_.BroadcastsInDim S32768x200 (![] : Fin 0 → Fin S32768x200.rank)
  reducesTo_S32768x200_S_d0_1 : S32768x200.ReducesTo [0, 1] S_
  h_S_ : 0 < S_.numel
  bcast_S_S32768x10x200 : S_.BroadcastsInDim S32768x10x200 (![] : Fin 0 → Fin S32768x10x200.rank)
  reducesTo_S32768x10x200_S_d0_1_2 : S32768x10x200.ReducesTo [0, 1, 2] S_
  bcast_S_S200x100 : S_.BroadcastsInDim S200x100 (![] : Fin 0 → Fin S200x100.rank)
  reducesTo_S200x100_S_d0_1 : S200x100.ReducesTo [0, 1] S_
  bcast_S_S100 : S_.BroadcastsInDim S100 (![] : Fin 0 → Fin S100.rank)
  reducesTo_S100_S_d0 : S100.ReducesTo [0] S_
  bcast_S_S100x100 : S_.BroadcastsInDim S100x100 (![] : Fin 0 → Fin S100x100.rank)
  reducesTo_S100x100_S_d0_1 : S100x100.ReducesTo [0, 1] S_
  bcast_S_S100x200 : S_.BroadcastsInDim S100x200 (![] : Fin 0 → Fin S100x200.rank)
  reducesTo_S100x200_S_d0_1 : S100x200.ReducesTo [0, 1] S_
  bcast_S_S200 : S_.BroadcastsInDim S200 (![] : Fin 0 → Fin S200.rank)
  reducesTo_S200_S_d0 : S200.ReducesTo [0] S_
  bcast_S_S200x2 : S_.BroadcastsInDim S200x2 (![] : Fin 0 → Fin S200x2.rank)
  reducesTo_S200x2_S_d0_1 : S200x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S200 .f32) (main_arg8 : FVec F S200x2 .f32) (main_arg9 : FVec F S2 .f32) (main_v33 : IVec S_ 1) : IVec S_ 1 :=
  let main_v34 : FVec F S200 .f32 := Host.absf main_arg7
  let main_cst_12 : FVec F S_ .f32 := constant S_ .f32 0x7F800000#32
  let main_v35 : FVec F S200 .f32 := broadcastInDim S200 ![] bcast_S_S200 main_cst_12
  let main_v36 : IVec S200 1 := cmpf .olt main_v34 main_v35
  let main_c_13 : IVec S_ 1 := constantI S_ 1 1#1
  let main_v37 : IVec S_ 1 := (fun x v => Host.reduce IntOp.andi x v reducesTo_S200_S_d0 h_S_) main_v36 main_c_13
  let main_v38 : IVec S_ 1 := andi main_v33 main_v37
  let main_v39 : FVec F S200x2 .f32 := Host.absf main_arg8
  let main_cst_14 : FVec F S_ .f32 := constant S_ .f32 0x7F800000#32
  let main_v40 : FVec F S200x2 .f32 := broadcastInDim S200x2 ![] bcast_S_S200x2 main_cst_14
  let main_v41 : IVec S200x2 1 := cmpf .olt main_v39 main_v40
  let main_c_15 : IVec S_ 1 := constantI S_ 1 1#1
  let main_v42 : IVec S_ 1 := (fun x v => Host.reduce IntOp.andi x v reducesTo_S200x2_S_d0_1 h_S_) main_v41 main_c_15
  let main_v43 : IVec S_ 1 := andi main_v38 main_v42
  let main_v44 : FVec F S2 .f32 := Host.absf main_arg9
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  main_v48

def fn_part1 {F : FTy → Type} [FloatOps F] (main_arg4 : FVec F S100x100 .f32) (main_arg5 : FVec F S100 .f32) (main_arg6 : FVec F S100x200 .f32) (main_arg7 : FVec F S200 .f32) (main_arg8 : FVec F S200x2 .f32) (main_arg9 : FVec F S2 .f32) (main_v13 : IVec S_ 1) (main_v16 : IVec S100 1) : IVec S_ 1 :=
  let main_c_5 : IVec S_ 1 := constantI S_ 1 1#1
  let main_v17 : IVec S_ 1 := (fun x v => Host.reduce IntOp.andi x v reducesTo_S100_S_d0 h_S_) main_v16 main_c_5
  let main_v18 : IVec S_ 1 := andi main_v13 main_v17
  let main_v19 : FVec F S100x100 .f32 := Host.absf main_arg4
  let main_cst_6 : FVec F S_ .f32 := constant S_ .f32 0x7F800000#32
  let main_v20 : FVec F S100x100 .f32 := broadcastInDim S100x100 ![] bcast_S_S100x100 main_cst_6
  let main_v21 : IVec S100x100 1 := cmpf .olt main_v19 main_v20
  let main_c_7 : IVec S_ 1 := constantI S_ 1 1#1
  let main_v22 : IVec S_ 1 := (fun x v => Host.reduce IntOp.andi x v reducesTo_S100x100_S_d0_1 h_S_) main_v21 main_c_7
  let main_v23 : IVec S_ 1 := andi main_v18 main_v22
  let main_v24 : FVec F S100 .f32 := Host.absf main_arg5
  let main_cst_8 : FVec F S_ .f32 := constant S_ .f32 0x7F800000#32
  let main_v25 : FVec F S100 .f32 := broadcastInDim S100 ![] bcast_S_S100 main_cst_8
  let main_v26 : IVec S100 1 := cmpf .olt main_v24 main_v25
  let main_c_9 : IVec S_ 1 := constantI S_ 1 1#1
  let main_v27 : IVec S_ 1 := (fun x v => Host.reduce IntOp.andi x v reducesTo_S100_S_d0 h_S_) main_v26 main_c_9
  let main_v28 : IVec S_ 1 := andi main_v23 main_v27
  let main_v29 : FVec F S100x200 .f32 := Host.absf main_arg6
  let main_cst_10 : FVec F S_ .f32 := constant S_ .f32 0x7F800000#32
  let main_v30 : FVec F S100x200 .f32 := broadcastInDim S100x200 ![] bcast_S_S100x200 main_cst_10
  let main_v31 : IVec S100x200 1 := cmpf .olt main_v29 main_v30
  let main_c_11 : IVec S_ 1 := constantI S_ 1 1#1
  let main_v32 : IVec S_ 1 := (fun x v => Host.reduce IntOp.andi x v reducesTo_S100x200_S_d0_1 h_S_) main_v31 main_c_11
  let main_v33 : IVec S_ 1 := andi main_v28 main_v32
  fn_part2 (F := F) main_arg7 main_arg8 main_arg9 main_v33

def fn {F : FTy → Type} [FloatOps F] (main_arg0 : FVec F S32768x200 .f32) (main_arg1 : FVec F S32768x10x200 .f32) (main_arg2 : FVec F S200x100 .f32) (main_arg3 : FVec F S100 .f32) (main_arg4 : FVec F S100x100 .f32) (main_arg5 : FVec F S100 .f32) (main_arg6 : FVec F S100x200 .f32) (main_arg7 : FVec F S200 .f32) (main_arg8 : FVec F S200x2 .f32) (main_arg9 : FVec F S2 .f32) : IVec S_ 1 :=
  let main_v0 : FVec F S32768x200 .f32 := Host.absf main_arg0
  let main_cst : FVec F S_ .f32 := constant S_ .f32 0x7F800000#32
  let main_v1 : FVec F S32768x200 .f32 := broadcastInDim S32768x200 ![] bcast_S_S32768x200 main_cst
  let main_v2 : IVec S32768x200 1 := cmpf .olt main_v0 main_v1
  let main_c : IVec S_ 1 := constantI S_ 1 1#1
  let main_v3 : IVec S_ 1 := (fun x v => Host.reduce IntOp.andi x v reducesTo_S32768x200_S_d0_1 h_S_) main_v2 main_c
  let main_v4 : FVec F S32768x10x200 .f32 := Host.absf main_arg1
  let main_cst_0 : FVec F S_ .f32 := constant S_ .f32 0x7F800000#32
  let main_v5 : FVec F S32768x10x200 .f32 := broadcastInDim S32768x10x200 ![] bcast_S_S32768x10x200 main_cst_0
  let main_v6 : IVec S32768x10x200 1 := cmpf .olt main_v4 main_v5
  let main_c_1 : IVec S_ 1 := constantI S_ 1 1#1
  let main_v7 : IVec S_ 1 := (fun x v => Host.reduce IntOp.andi x v reducesTo_S32768x10x200_S_d0_1_2 h_S_) main_v6 main_c_1
  let main_v8 : IVec S_ 1 := andi main_v3 main_v7
  let main_v9 : FVec F S200x100 .f32 := Host.absf main_arg2
  let main_cst_2 : FVec F S_ .f32 := constant S_ .f32 0x7F800000#32
  let main_v10 : FVec F S200x100 .f32 := broadcastInDim S200x100 ![] bcast_S_S200x100 main_cst_2
  let main_v11 : IVec S200x100 1 := cmpf .olt main_v9 main_v10
  let main_c_3 : IVec S_ 1 := constantI S_ 1 1#1
  let main_v12 : IVec S_ 1 := (fun x v => Host.reduce IntOp.andi x v reducesTo_S200x100_S_d0_1 h_S_) main_v11 main_c_3
  let main_v13 : IVec S_ 1 := andi main_v8 main_v12
  let main_v14 : FVec F S100 .f32 := Host.absf main_arg3
  let main_cst_4 : FVec F S_ .f32 := constant S_ .f32 0x7F800000#32
  let main_v15 : FVec F S100 .f32 := broadcastInDim S100 ![] bcast_S_S100 main_cst_4
  let main_v16 : IVec S100 1 := cmpf .olt main_v14 main_v15
  fn_part1 (F := F) main_arg4 main_arg5 main_arg6 main_arg7 main_arg8 main_arg9 main_v13 main_v16
-- ==== Kernel.lean ====
abbrev S32768x200 : Shape := ⟨2, ![32768, 200]⟩
abbrev S32768x10x200 : Shape := ⟨3, ![32768, 10, 200]⟩
abbrev S200x100 : Shape := ⟨2, ![200, 100]⟩
abbrev S100 : Shape := ⟨1, ![100]⟩
abbrev S100x100 : Shape := ⟨2, ![100, 100]⟩
abbrev S100x200 : Shape := ⟨2, ![100, 200]⟩
abbrev S200 : Shape := ⟨1, ![200]⟩
abbrev S200x2 : Shape := ⟨2, ![200, 2]⟩
abbrev S2 : Shape := ⟨1, ![2]⟩
abbrev S32768x2 : Shape := ⟨2, ![32768, 2]⟩
abbrev S1024x200 : Shape := ⟨2, ![1024, 200]⟩
abbrev S1024x10x200 : Shape := ⟨3, ![1024, 10, 200]⟩
abbrev S1024x2 : Shape := ⟨2, ![1024, 2]⟩
abbrev S1024x100 : Shape := ⟨2, ![1024, 100]⟩
abbrev S1x100 : Shape := ⟨2, ![1, 100]⟩
abbrev S1x200 : Shape := ⟨2, ![1, 200]⟩
abbrev S1024x1x200 : Shape := ⟨3, ![1024, 1, 200]⟩
abbrev S1024 : Shape := ⟨1, ![1024]⟩
abbrev S1024x1 : Shape := ⟨2, ![1024, 1]⟩
abbrev S1x2 : Shape := ⟨2, ![1, 2]⟩

abbrev nBuf : Space → Nat
  | .hbm => 16
  | .vmem => 16
  | .smem => 0
  | _ => 0

abbrev bufTy : (tb : Table) → Fin (tcTables nBuf tb) → BufTy
  | .hbm, ⟨0, _⟩ => ⟨S32768x200, .f32⟩
  | .hbm, ⟨1, _⟩ => ⟨S32768x10x200, .f32⟩
  | .hbm, ⟨2, _⟩ => ⟨S200x100, .f32⟩
  | .hbm, ⟨3, _⟩ => ⟨S100, .f32⟩
  | .hbm, ⟨4, _⟩ => ⟨S100x100, .f32⟩
  | .hbm, ⟨5, _⟩ => ⟨S100, .f32⟩
  | .hbm, ⟨6, _⟩ => ⟨S100x200, .f32⟩
  | .hbm, ⟨7, _⟩ => ⟨S200, .f32⟩
  | .hbm, ⟨8, _⟩ => ⟨S200x2, .f32⟩
  | .hbm, ⟨9, _⟩ => ⟨S2, .f32⟩
  | .hbm, ⟨10, _⟩ => ⟨S200x100, .bf16⟩
  | .hbm, ⟨11, _⟩ => ⟨S100x100, .bf16⟩
  | .hbm, ⟨12, _⟩ => ⟨S100x200, .bf16⟩
  | .hbm, ⟨13, _⟩ => ⟨S200x2, .bf16⟩
  | .hbm, ⟨14, _⟩ => ⟨S32768x2, .f32⟩
  | .hbm, ⟨15, _⟩ => ⟨S32768x200, .f32⟩
  | .local _ .vmem, ⟨0, _⟩ => ⟨S1024x200, .f32⟩
  | .local _ .vmem, ⟨1, _⟩ => ⟨S1024x200, .f32⟩
  | .local _ .vmem, ⟨2, _⟩ => ⟨S1024x10x200, .f32⟩
  | .local _ .vmem, ⟨3, _⟩ => ⟨S1024x10x200, .f32⟩
  | .local _ .vmem, ⟨4, _⟩ => ⟨S200x100, .bf16⟩
  | .local _ .vmem, ⟨5, _⟩ => ⟨S100, .f32⟩
  | .local _ .vmem, ⟨6, _⟩ => ⟨S100x100, .bf16⟩
  | .local _ .vmem, ⟨7, _⟩ => ⟨S100, .f32⟩
  | .local _ .vmem, ⟨8, _⟩ => ⟨S100x200, .bf16⟩
  | .local _ .vmem, ⟨9, _⟩ => ⟨S200, .f32⟩
  | .local _ .vmem, ⟨10, _⟩ => ⟨S200x2, .bf16⟩
  | .local _ .vmem, ⟨11, _⟩ => ⟨S2, .f32⟩
  | .local _ .vmem, ⟨12, _⟩ => ⟨S1024x2, .f32⟩
  | .local _ .vmem, ⟨13, _⟩ => ⟨S1024x2, .f32⟩
  | .local _ .vmem, ⟨14, _⟩ => ⟨S1024x200, .f32⟩
  | .local _ .vmem, ⟨15, _⟩ => ⟨S1024x200, .f32⟩
  | _, _ => ⟨S32768x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x10x200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S200x100 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S100x100 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S100 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S100x200 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S200 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S200x2 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x2 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x200 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bitsLt_bf16_f32 : FTy.bits .bf16 < FTy.bits .f32
  inb_S1024x200_S1024x200_0_0 : ∀ a, (![0, 0] : Fin 2 → Nat) a + S1024x200.size a ≤ S1024x200.size a
  h_S1024x200 : 0 < S1024x200.numel
  inb_S200x100_S200x100_0_0 : ∀ a, (![0, 0] : Fin 2 → Nat) a + S200x100.size a ≤ S200x100.size a
  h_S200x100 : 0 < S200x100.numel
  shapeCasts_S200x100_S200x100 : S200x100.ShapeCasts S200x100
  inb_S100_S100_0 : ∀ a, (![0] : Fin 1 → Nat) a + S100.size a ≤ S100.size a
  h_S100 : 0 < S100.numel
  shapeCasts_S100_S1x100 : S100.ShapeCasts S1x100
  broadcasts_S1x100_S1024x100 : S1x100.Broadcasts S1024x100
  inb_S100x100_S100x100_0_0 : ∀ a, (![0, 0] : Fin 2 → Nat) a + S100x100.size a ≤ S100x100.size a
  h_S100x100 : 0 < S100x100.numel
  shapeCasts_S100x100_S100x100 : S100x100.ShapeCasts S100x100
  inb_S100x200_S100x200_0_0 : ∀ a, (![0, 0] : Fin 2 → Nat) a + S100x200.size a ≤ S100x200.size a
  h_S100x200 : 0 < S100x200.numel
  shapeCasts_S100x200_S100x200 : S100x200.ShapeCasts S100x200
  inb_S200_S200_0 : ∀ a, (![0] : Fin 1 → Nat) a + S200.size a ≤ S200.size a
  h_S200 : 0 < S200.numel
  shapeCasts_S200_S1x200 : S200.ShapeCasts S1x200
  broadcasts_S1x200_S1024x200 : S1x200.Broadcasts S1024x200
  inb_S1024x10x200_S1024x1x200_0_0_0 : ∀ a, (![0, 0, 0] : Fin 3 → Nat) a + S1024x1x200.size a ≤ S1024x10x200.size a
  h_S1024x1x200 : 0 < S1024x1x200.numel
  shapeCasts_S1024x1x200_S1024x200 : S1024x1x200.ShapeCasts S1024x200
  reduces_S1024x200_S1024 : S1024x200.Reduces [1] S1024
  shapeCasts_S1024_S1024x1 : S1024.ShapeCasts S1024x1
  broadcasts_S1024x1_S1024x200 : S1024x1.Broadcasts S1024x200
  inb_S1024x10x200_S1024x1x200_0_1_0 : ∀ a, (![0, 1, 0] : Fin 3 → Nat) a + S1024x1x200.size a ≤ S1024x10x200.size a
  inb_S1024x10x200_S1024x1x200_0_2_0 : ∀ a, (![0, 2, 0] : Fin 3 → Nat) a + S1024x1x200.size a ≤ S1024x10x200.size a
  inb_S1024x10x200_S1024x1x200_0_3_0 : ∀ a, (![0, 3, 0] : Fin 3 → Nat) a + S1024x1x200.size a ≤ S1024x10x200.size a
  inb_S1024x10x200_S1024x1x200_0_4_0 : ∀ a, (![0, 4, 0] : Fin 3 → Nat) a + S1024x1x200.size a ≤ S1024x10x200.size a
  inb_S1024x10x200_S1024x1x200_0_5_0 : ∀ a, (![0, 5, 0] : Fin 3 → Nat) a + S1024x1x200.size a ≤ S1024x10x200.size a
  inb_S1024x10x200_S1024x1x200_0_6_0 : ∀ a, (![0, 6, 0] : Fin 3 → Nat) a + S1024x1x200.size a ≤ S1024x10x200.size a
  inb_S1024x10x200_S1024x1x200_0_7_0 : ∀ a, (![0, 7, 0] : Fin 3 → Nat) a + S1024x1x200.size a ≤ S1024x10x200.size a
  inb_S1024x10x200_S1024x1x200_0_8_0 : ∀ a, (![0, 8, 0] : Fin 3 → Nat) a + S1024x1x200.size a ≤ S1024x10x200.size a
  inb_S1024x10x200_S1024x1x200_0_9_0 : ∀ a, (![0, 9, 0] : Fin 3 → Nat) a + S1024x1x200.size a ≤ S1024x10x200.size a
  inb_S200x2_S200x2_0_0 : ∀ a, (![0, 0] : Fin 2 → Nat) a + S200x2.size a ≤ S200x2.size a
  h_S200x2 : 0 < S200x2.numel
  shapeCasts_S200x2_S200x2 : S200x2.ShapeCasts S200x2
  inb_S2_S2_0 : ∀ a, (![0] : Fin 1 → Nat) a + S2.size a ≤ S2.size a
  h_S2 : 0 < S2.numel
  shapeCasts_S2_S1x2 : S2.ShapeCasts S1x2
  broadcasts_S1x2_S1024x2 : S1x2.Broadcasts S1024x2
  reduces_S1024x2_S1024 : S1024x2.Reduces [1] S1024
  broadcasts_S1024x1_S1024x2 : S1024x1.Broadcasts S1024x2
  inb_S1024x2_S1024x2_0_0 : ∀ a, (![0, 0] : Fin 2 → Nat) a + S1024x2.size a ≤ S1024x2.size a
  h_S1024x2 : 0 < S1024x2.numel
  dot_S1024x200_S200x100_S1024x100_1_0_0_1_n_n_wf : DotDims.WF S1024x200 S200x100 S1024x100 [1] [0] [0] [1] [] []
  dot_S1024x100_S100x100_S1024x100_1_0_0_1_n_n_wf : DotDims.WF S1024x100 S100x100 S1024x100 [1] [0] [0] [1] [] []
  dot_S1024x100_S100x200_S1024x200_1_0_0_1_n_n_wf : DotDims.WF S1024x100 S100x200 S1024x200 [1] [0] [0] [1] [] []
  dot_S1024x200_S200x2_S1024x2_1_0_0_1_n_n_wf : DotDims.WF S1024x200 S200x2 S1024x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x200.size a ≤ S32768x200.size a
  hwx0_0 : ∀ i : grid0.Coords, EltTy.bits .f32 = 32 ∨ (Rect.block (s := S32768x200) S1024x200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x10x200.size a ≤ S32768x10x200.size a
  hwx0_1 : ∀ i : grid0.Coords, EltTy.bits .f32 = 32 ∨ (Rect.block (s := S32768x10x200) S1024x10x200.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S200x100.size a ≤ S200x100.size a
  hwx0_2 : ∀ i : grid0.Coords, EltTy.bits .bf16 = 32 ∨ (Rect.block (s := S200x100) S200x100.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100.size a ≤ S100.size a
  hwx0_3 : ∀ i : grid0.Coords, EltTy.bits .f32 = 32 ∨ (Rect.block (s := S100) S100.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S100x100.size a ≤ S100x100.size a
  hwx0_4 : ∀ i : grid0.Coords, EltTy.bits .bf16 = 32 ∨ (Rect.block (s := S100x100) S100x100.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S100.size a ≤ S100.size a
  hwx0_5 : ∀ i : grid0.Coords, EltTy.bits .f32 = 32 ∨ (Rect.block (s := S100) S100.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S100x200.size a ≤ S100x200.size a
  hwx0_6 : ∀ i : grid0.Coords, EltTy.bits .bf16 = 32 ∨ (Rect.block (s := S100x200) S100x200.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S200.size a ≤ S200.size a
  hwx0_7 : ∀ i : grid0.Coords, EltTy.bits .f32 = 32 ∨ (Rect.block (s := S200) S200.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S200x2.size a ≤ S200x2.size a
  hwx0_8 : ∀ i : grid0.Coords, EltTy.bits .bf16 = 32 ∨ (Rect.block (s := S200x2) S200x2.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2.size a ≤ S2.size a
  hwx0_9 : ∀ i : grid0.Coords, EltTy.bits .f32 = 32 ∨ (Rect.block (s := S2) S2.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x2.size a ≤ S32768x2.size a
  hwx0_10 : ∀ i : grid0.Coords, EltTy.bits .f32 = 32 ∨ (Rect.block (s := S32768x2) S1024x2.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x200.size a ≤ S32768x200.size a
  hwx0_11 : ∀ i : grid0.Coords, EltTy.bits .f32 = 32 ∨ (Rect.block (s := S32768x200) S1024x200.size (cc0_transform_11 i) (hinb0_11 i)).WholeWords (EltTy.packing .f32)

variable [Facts₀]

def dot_S1024x200_S200x100_S1024x100_1_0_0_1_n_n : DotDims S1024x200 S200x100 S1024x100 where
  lhsContracting := [1]
  rhsContracting := [0]
  lhsNonContracting := [0]
  rhsNonContracting := [1]
  lhsBatch := []
  rhsBatch := []
  wf := dot_S1024x200_S200x100_S1024x100_1_0_0_1_n_n_wf
def dot_S1024x100_S100x100_S1024x100_1_0_0_1_n_n : DotDims S1024x100 S100x100 S1024x100 where
  lhsContracting := [1]
  rhsContracting := [0]
  lhsNonContracting := [0]
  rhsNonContracting := [1]
  lhsBatch := []
  rhsBatch := []
  wf := dot_S1024x100_S100x100_S1024x100_1_0_0_1_n_n_wf
def dot_S1024x100_S100x200_S1024x200_1_0_0_1_n_n : DotDims S1024x100 S100x200 S1024x200 where
  lhsContracting := [1]
  rhsContracting := [0]
  lhsNonContracting := [0]
  rhsNonContracting := [1]
  lhsBatch := []
  rhsBatch := []
  wf := dot_S1024x100_S100x200_S1024x200_1_0_0_1_n_n_wf
def dot_S1024x200_S200x2_S1024x2_1_0_0_1_n_n : DotDims S1024x200 S200x2 S1024x2 where
  lhsContracting := [1]
  rhsContracting := [0]
  lhsNonContracting := [0]
  rhsNonContracting := [1]
  lhsBatch := []
  rhsBatch := []
  wf := dot_S1024x200_S200x2_S1024x2_1_0_0_1_n_n_wf

abbrev win0_0 : Pipeline.Window sig grid0 :=
  Pipeline.Window.ofSpec (Memref.whole main_arg0) S1024x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x10x200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S200x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S100.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S100x100.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S100.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S100x200.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S200.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S200x2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S2.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4_0) S1024x2.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v4_1) S1024x200.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S32768x200 : Shape := ⟨2, ![32768, 200]⟩
abbrev S32768x10x200 : Shape := ⟨3, ![32768, 10, 200]⟩
abbrev S200x100 : Shape := ⟨2, ![200, 100]⟩
abbrev S100 : Shape := ⟨1, ![100]⟩
abbrev S100x100 : Shape := ⟨2, ![100, 100]⟩
abbrev S100x200 : Shape := ⟨2, ![100, 200]⟩
abbrev S200 : Shape := ⟨1, ![200]⟩
abbrev S200x2 : Shape := ⟨2, ![200, 2]⟩
abbrev S2 : Shape := ⟨1, ![2]⟩
abbrev S32768x100 : Shape := ⟨2, ![32768, 100]⟩
abbrev S1x100 : Shape := ⟨2, ![1, 100]⟩
abbrev S_ : Shape := ⟨0, ![]⟩
abbrev S1x200 : Shape := ⟨2, ![1, 200]⟩
abbrev S32768x1x200 : Shape := ⟨3, ![32768, 1, 200]⟩
abbrev S32768x10 : Shape := ⟨2, ![32768, 10]⟩
abbrev S32768x10x1 : Shape := ⟨3, ![32768, 10, 1]⟩
abbrev S32768x2 : Shape := ⟨2, ![32768, 2]⟩
abbrev S1x2 : Shape := ⟨2, ![1, 2]⟩
abbrev S32768 : Shape := ⟨1, ![32768]⟩
abbrev S32768x1 : Shape := ⟨2, ![32768, 1]⟩

abbrev nBuf : Space → Nat
  | .hbm => 81
  | .vmem => 0
  | .smem => 0
  | _ => 0

abbrev bufTy : (tb : Table) → Fin (tcTables nBuf tb) → BufTy
  | .hbm, ⟨0, _⟩ => ⟨S32768x200, .f32⟩
  | .hbm, ⟨1, _⟩ => ⟨S32768x10x200, .f32⟩
  | .hbm, ⟨2, _⟩ => ⟨S200x100, .f32⟩
  | .hbm, ⟨3, _⟩ => ⟨S100, .f32⟩
  | .hbm, ⟨4, _⟩ => ⟨S100x100, .f32⟩
  | .hbm, ⟨5, _⟩ => ⟨S100, .f32⟩
  | .hbm, ⟨6, _⟩ => ⟨S100x200, .f32⟩
  | .hbm, ⟨7, _⟩ => ⟨S200, .f32⟩
  | .hbm, ⟨8, _⟩ => ⟨S200x2, .f32⟩
  | .hbm, ⟨9, _⟩ => ⟨S2, .f32⟩
  | .hbm, ⟨10, _⟩ => ⟨S32768x100, .f32⟩
  | .hbm, ⟨11, _⟩ => ⟨S1x100, .f32⟩
  | .hbm, ⟨12, _⟩ => ⟨S32768x100, .f32⟩
  | .hbm, ⟨13, _⟩ => ⟨S32768x100, .f32⟩
  | .hbm, ⟨14, _⟩ => ⟨S_, .f32⟩
  | .hbm, ⟨15, _⟩ => ⟨S32768x100, .f32⟩
  | .hbm, ⟨16, _⟩ => ⟨S32768x100, .f32⟩
  | .hbm, ⟨17, _⟩ => ⟨S32768x100, .f32⟩
  | .hbm, ⟨18, _⟩ => ⟨S1x100, .f32⟩
  | .hbm, ⟨19, _⟩ => ⟨S32768x100, .f32⟩
  | .hbm, ⟨20, _⟩ => ⟨S32768x100, .f32⟩
  | .hbm, ⟨21, _⟩ => ⟨S_, .f32⟩
  | .hbm, ⟨22, _⟩ => ⟨S32768x100, .f32⟩
  | .hbm, ⟨23, _⟩ => ⟨S32768x100, .f32⟩
  | .hbm, ⟨24, _⟩ => ⟨S32768x200, .f32⟩
  | .hbm, ⟨25, _⟩ => ⟨S1x200, .f32⟩
  | .hbm, ⟨26, _⟩ => ⟨S32768x200, .f32⟩
  | .hbm, ⟨27, _⟩ => ⟨S32768x200, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S32768x10x200, .f32⟩
  | .hbm, ⟨32, _⟩ => ⟨S32768x10x200, .f32⟩
  | .hbm, ⟨33, _⟩ => ⟨S_, .f32⟩
  | .hbm, ⟨34, _⟩ => ⟨S32768x10x200, .f32⟩
  | .hbm, ⟨35, _⟩ => ⟨S32768x10x200, .f32⟩
  | .hbm, ⟨36, _⟩ => ⟨S32768x10x200, .f32⟩
  | .hbm, ⟨37, _⟩ => ⟨S32768x10x200, .f32⟩
  | .hbm, ⟨38, _⟩ => ⟨S32768x10x200, .f32⟩
  | .hbm, ⟨39, _⟩ => ⟨S32768x10x200, .f32⟩
  | .hbm, ⟨40, _⟩ => ⟨S32768x1x200, .f32⟩
  | .hbm, ⟨41, _⟩ => ⟨S32768x10x200, .f32⟩
  | .hbm, ⟨42, _⟩ => ⟨S32768x10x200, .f32⟩
  | .hbm, ⟨43, _⟩ => ⟨S_, .f32⟩
  | .hbm, ⟨44, _⟩ => ⟨S32768x10x200, .f32⟩
  | .hbm, ⟨45, _⟩ => ⟨S32768x10x200, .f32⟩
  | .hbm, ⟨46, _⟩ => ⟨S_, .f32⟩
  | .hbm, ⟨47, _⟩ => ⟨S32768x10, .f32⟩
  | .hbm, ⟨48, _⟩ => ⟨S_, .f32⟩
  | .hbm, ⟨49, _⟩ => ⟨S32768x10, .f32⟩
  | .hbm, ⟨50, _⟩ => ⟨S32768x10, .f32⟩
  | .hbm, ⟨51, _⟩ => ⟨S32768x10x1, .f32⟩
  | .hbm, ⟨52, _⟩ => ⟨S32768x10x200, .f32⟩
  | .hbm, ⟨53, _⟩ => ⟨S32768x10x200, .f32⟩
  | .hbm, ⟨54, _⟩ => ⟨S32768x10x200, .f32⟩
  | .hbm, ⟨55, _⟩ => ⟨S_, .f32⟩
  | .hbm, ⟨56, _⟩ => ⟨S32768x10, .f32⟩
  | .hbm, ⟨57, _⟩ => ⟨S32768x10x1, .f32⟩
  | .hbm, ⟨58, _⟩ => ⟨S32768x10x200, .f32⟩
  | .hbm, ⟨59, _⟩ => ⟨S32768x10x200, .f32⟩
  | .hbm, ⟨60, _⟩ => ⟨S_, .f32⟩
  | .hbm, ⟨61, _⟩ => ⟨S32768x200, .f32⟩
  | .hbm, ⟨62, _⟩ => ⟨S32768x200, .f32⟩
  | .hbm, ⟨63, _⟩ => ⟨S32768x2, .f32⟩
  | .hbm, ⟨64, _⟩ => ⟨S1x2, .f32⟩
  | .hbm, ⟨65, _⟩ => ⟨S32768x2, .f32⟩
  | .hbm, ⟨66, _⟩ => ⟨S32768x2, .f32⟩
  | .hbm, ⟨67, _⟩ => ⟨S_, .f32⟩
  | .hbm, ⟨68, _⟩ => ⟨S32768, .f32⟩
  | .hbm, ⟨69, _⟩ => ⟨S_, .f32⟩
  | .hbm, ⟨70, _⟩ => ⟨S32768, .f32⟩
  | .hbm, ⟨71, _⟩ => ⟨S32768, .f32⟩
  | .hbm, ⟨72, _⟩ => ⟨S32768x1, .f32⟩
  | .hbm, ⟨73, _⟩ => ⟨S32768x2, .f32⟩
  | .hbm, ⟨74, _⟩ => ⟨S32768x2, .f32⟩
  | .hbm, ⟨75, _⟩ => ⟨S32768x2, .f32⟩
  | .hbm, ⟨76, _⟩ => ⟨S_, .f32⟩
  | .hbm, ⟨77, _⟩ => ⟨S32768, .f32⟩
  | .hbm, ⟨78, _⟩ => ⟨S32768x1, .f32⟩
  | .hbm, ⟨79, _⟩ => ⟨S32768x2, .f32⟩
  | .hbm, ⟨80, _⟩ => ⟨S32768x2, .f32⟩
  | _, _ => ⟨S32768x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_cst_0 : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_1 : Ref sig .tc := ⟨.hbm, 43, rfl⟩
abbrev main_v22 : Ref sig .tc := ⟨.hbm, 44, rfl⟩
abbrev main_v23 : Ref sig .tc := ⟨.hbm, 45, rfl⟩
abbrev main_cst_2 : Ref sig .tc := ⟨.hbm, 46, rfl⟩
abbrev main_v24 : Ref sig .tc := ⟨.hbm, 47, rfl⟩
abbrev main_cst_3 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_4 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_5 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_6 : Ref sig .tc := ⟨.hbm, 67, rfl⟩
abbrev main_v41 : Ref sig .tc := ⟨.hbm, 68, rfl⟩
abbrev main_cst_7 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_8 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩

abbrev nD : Nat := 1
abbrev τ : Topo := Topo.v7x

variable {F : FTy → Type} [FloatOps F]

class Facts₀ : Prop where
  bcast_S100_S1x100_1 : S100.BroadcastsInDim S1x100 (![1] : Fin 1 → Fin S1x100.rank)
  bcast_S1x100_S32768x100_0_1 : S1x100.BroadcastsInDim S32768x100 (![0, 1] : Fin 2 → Fin S32768x100.rank)
  bcast_S_S32768x100 : S_.BroadcastsInDim S32768x100 (![] : Fin 0 → Fin S32768x100.rank)
  bcast_S200_S1x200_1 : S200.BroadcastsInDim S1x200 (![1] : Fin 1 → Fin S1x200.rank)
  bcast_S1x200_S32768x200_0_1 : S1x200.BroadcastsInDim S32768x200 (![0, 1] : Fin 2 → Fin S32768x200.rank)
  bcast_S_S32768x10x200 : S_.BroadcastsInDim S32768x10x200 (![] : Fin 0 → Fin S32768x10x200.rank)
  bcast_S32768x200_S32768x1x200_0_2 : S32768x200.BroadcastsInDim S32768x1x200 (![0, 2] : Fin 2 → Fin S32768x1x200.rank)
  bcast_S32768x1x200_S32768x10x200_0_1_2 : S32768x1x200.BroadcastsInDim S32768x10x200 (![0, 1, 2] : Fin 3 → Fin S32768x10x200.rank)
  reducesTo_S32768x10x200_S32768x10_d2 : S32768x10x200.ReducesTo [2] S32768x10
  h_S_ : 0 < S_.numel
  bcast_S_S32768x10 : S_.BroadcastsInDim S32768x10 (![] : Fin 0 → Fin S32768x10.rank)
  bcast_S32768x10_S32768x10x1_0_1 : S32768x10.BroadcastsInDim S32768x10x1 (![0, 1] : Fin 2 → Fin S32768x10x1.rank)
  bcast_S32768x10x1_S32768x10x200_0_1_2 : S32768x10x1.BroadcastsInDim S32768x10x200 (![0, 1, 2] : Fin 3 → Fin S32768x10x200.rank)
  reducesTo_S32768x10x200_S32768x200_d1 : S32768x10x200.ReducesTo [1] S32768x200
  bcast_S2_S1x2_1 : S2.BroadcastsInDim S1x2 (![1] : Fin 1 → Fin S1x2.rank)
  bcast_S1x2_S32768x2_0_1 : S1x2.BroadcastsInDim S32768x2 (![0, 1] : Fin 2 → Fin S32768x2.rank)
  reducesTo_S32768x2_S32768_d1 : S32768x2.ReducesTo [1] S32768
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x2_0_1 : S32768x1.BroadcastsInDim S32768x2 (![0, 1] : Fin 2 → Fin S32768x2.rank)
  dot_S32768x200_S200x100_S32768x100_1_0_0_1_n_n_wf : DotDims.WF S32768x200 S200x100 S32768x100 [1] [0] [0] [1] [] []
  dot_S32768x100_S100x100_S32768x100_1_0_0_1_n_n_wf : DotDims.WF S32768x100 S100x100 S32768x100 [1] [0] [0] [1] [] []
  dot_S32768x100_S100x200_S32768x200_1_0_0_1_n_n_wf : DotDims.WF S32768x100 S100x200 S32768x200 [1] [0] [0] [1] [] []
  dot_S32768x200_S200x2_S32768x2_1_0_0_1_n_n_wf : DotDims.WF S32768x200 S200x2 S32768x2 [1] [0] [0] [1] [] []

variable [Facts₀]

def dot_S32768x200_S200x100_S32768x100_1_0_0_1_n_n : DotDims S32768x200 S200x100 S32768x100 where
  lhsContracting := [1]
  rhsContracting := [0]
  lhsNonContracting := [0]
  rhsNonContracting := [1]
  lhsBatch := []
  rhsBatch := []
  wf := dot_S32768x200_S200x100_S32768x100_1_0_0_1_n_n_wf
def dot_S32768x100_S100x100_S32768x100_1_0_0_1_n_n : DotDims S32768x100 S100x100 S32768x100 where
  lhsContracting := [1]
  rhsContracting := [0]
  lhsNonContracting := [0]
  rhsNonContracting := [1]
  lhsBatch := []
  rhsBatch := []
  wf := dot_S32768x100_S100x100_S32768x100_1_0_0_1_n_n_wf
def dot_S32768x100_S100x200_S32768x200_1_0_0_1_n_n : DotDims S32768x100 S100x200 S32768x200 where
  lhsContracting := [1]
  rhsContracting := [0]
  lhsNonContracting := [0]
  rhsNonContracting := [1]
  lhsBatch := []
  rhsBatch := []
  wf := dot_S32768x100_S100x200_S32768x200_1_0_0_1_n_n_wf
def dot_S32768x200_S200x2_S32768x2_1_0_0_1_n_n : DotDims S32768x200 S200x2 S32768x2 where
  lhsContracting := [1]
  rhsContracting := [0]
  lhsNonContracting := [0]
  rhsNonContracting := [1]
  lhsBatch := []
  rhsBatch := []
  wf := dot_S32768x200_S200x2_S32768x2_1_0_0_1_n_n_wf

class Facts : Prop extends Facts₀ where

variable [Facts]
-- ==== Proof.Spec.lean ====
/-
  The network both programs compute, written once, row by row, on the extended reals.

  One input row x (200 features) goes through three affine layers with a rectifier after the first two:
  logits = W_l · relu(W_2 · relu(W_1 · x + b_1) + b_2) + b_l.  For each of ten uniform draws u_s the row of Gumbel
  noise g = -log(-log(clip(u_s, eps, 1))) is added to the logits, the sum is scaled by 1/tau = 2, and the
  softmax over the 200 features is taken (a row's maximum subtracted before the exponential).  The sample weights
  are the maximum over the ten draws, feature by feature; the prediction is the softmax over two classes of
  (x * weights) · W_o + b_o.

  The laws that let two spellings of this network meet are stated at the end: subtracting from zero is negation,
  dividing by one half is doubling, a maximum taken from minus infinity is the maximum, and a maximum over ten
  draws folded from minus infinity is the chain of nine binary maxima.
-/
import Idealize.ShloMosaic.PureOps.Ideal.Laws
import Idealize.ShloMosaic.Lib.ValueIdx

noncomputable section

namespace Cert.Selector

open Idealize.ShloMosaic Idealize.ShloMosaic.ValueIdx

/-- The weights of the network: three hidden layers, then the two-class output layer. -/
structure Weights where
  w1 : Fin 200 → Fin 100 → EReal
  b1 : Fin 100 → EReal
  w2 : Fin 100 → Fin 100 → EReal
  b2 : Fin 100 → EReal
  wl : Fin 100 → Fin 200 → EReal
  bl : Fin 200 → EReal
  wo : Fin 200 → Fin 2 → EReal
  bo : Fin 2 → EReal

/-- An affine layer on one row: entry j is the inner product of the row with column j, plus the bias. -/
def dense {n k : ℕ} (v : Fin n → EReal) (W : Fin n → Fin k → EReal) (b : Fin k → EReal) (j : Fin k) : EReal :=
  (∑ i : Fin n, v i * W i j) + b j

/-- The logits of one row: two rectified affine layers and a third affine layer. -/
def logits (W : Weights) (x : Fin 200 → EReal) : Fin 200 → EReal :=
  dense (fun j => max (dense (fun j => max (dense x W.w1 W.b1 j) 0) W.w2 W.b2 j) 0) W.wl W.bl

/-- Gumbel noise from a uniform draw clipped into [eps, 1] (eps the f32 machine epsilon 2^-23). -/
def gumbel (u : EReal) : EReal :=
  -(Ideal.log (-(Ideal.log (min (Ideal.ofBits .f32 0x3F800000#32) (max (Ideal.ofBits .f32 0x34000000#32) u)))))

/-- The noisy logits of one draw, scaled by 1/tau = 2. -/
def noisy (L u : Fin 200 → EReal) (q : Fin 200) : EReal :=
  (gumbel (u q) + L q) * Ideal.ofBits .f32 0x40000000#32

/-- A row's maximum, folded from minus infinity. -/
def rowMax {n : ℕ} (v : Fin n → EReal) : EReal :=
  (Finset.univ : Finset (Fin n)).fold max (Ideal.ofBits .f32 0xFF800000#32) v

/-- The softmax of a row, the row's maximum subtracted before the exponential. -/
def softmax {n : ℕ} (v : Fin n → EReal) (q : Fin n) : EReal :=
  Ideal.div (Ideal.exp (v q - rowMax v)) (∑ k : Fin n, Ideal.exp (v k - rowMax v))

/-- The sample weights of one row: feature by feature, the largest softmax value over the ten draws. -/
def samples (W : Weights) (x : Fin 200 → EReal) (U : Fin 10 → Fin 200 → EReal) (q : Fin 200) : EReal :=
  (Finset.univ : Finset (Fin 10)).fold max (Ideal.ofBits .f32 0xFF800000#32)
    (fun s : Fin 10 => softmax (noisy (logits W x) (U s)) q)

/-- The two-class prediction of one row from the weighted features. -/
def preds (W : Weights) (x : Fin 200 → EReal) (U : Fin 10 → Fin 200 → EReal) (q : Fin 2) : EReal :=
  softmax (dense (fun k => x k * samples W x U k) W.wo W.bo) q

/-! ## The weights and the two results as arrays -/

/-- The weight arrays read by their coordinates. -/
def weightsOf (a2 : (⟨2, ![200, 100]⟩ : Shape).Idx → EReal) (a3 : (⟨1, ![100]⟩ : Shape).Idx → EReal)
    (a4 : (⟨2, ![100, 100]⟩ : Shape).Idx → EReal) (a5 : (⟨1, ![100]⟩ : Shape).Idx → EReal)
    (a6 : (⟨2, ![100, 200]⟩ : Shape).Idx → EReal) (a7 : (⟨1, ![200]⟩ : Shape).Idx → EReal)
    (a8 : (⟨2, ![200, 2]⟩ : Shape).Idx → EReal) (a9 : (⟨1, ![2]⟩ : Shape).Idx → EReal) : Weights where
  w1 a b := a2 (ix2 a b)
  b1 j := a3 (ix1 j)
  w2 a b := a4 (ix2 a b)
  b2 j := a5 (ix1 j)
  wl a b := a6 (ix2 a b)
  bl j := a7 (ix1 j)
  wo a b := a8 (ix2 a b)
  bo j := a9 (ix1 j)

/-- The sample-weight array: row r, feature q. -/
def samplesArr (W : Weights) (x : (⟨2, ![32768, 200]⟩ : Shape).Idx → EReal)
    (u : (⟨3, ![32768, 10, 200]⟩ : Shape).Idx → EReal) : (⟨2, ![32768, 200]⟩ : Shape).Idx → EReal :=
  fun i => samples W (fun k : Fin 200 => x (ix2 (i 0 : Fin 32768) k))
    (fun (s : Fin 10) (k : Fin 200) => u (ix3 (i 0 : Fin 32768) s k)) (i 1 : Fin 200)

/-- The prediction array: row r, class q. -/
def predsArr (W : Weights) (x : (⟨2, ![32768, 200]⟩ : Shape).Idx → EReal)
    (u : (⟨3, ![32768, 10, 200]⟩ : Shape).Idx → EReal) : (⟨2, ![32768, 2]⟩ : Shape).Idx → EReal :=
  fun i => preds W (fun k : Fin 200 => x (ix2 (i 0 : Fin 32768) k))
    (fun (s : Fin 10) (k : Fin 200) => u (ix3 (i 0 : Fin 32768) s k)) (i 1 : Fin 2)

theorem samplesArr_apply (W : Weights) (x : (⟨2, ![32768, 200]⟩ : Shape).Idx → EReal)
    (u : (⟨3, ![32768, 10, 200]⟩ : Shape).Idx → EReal) (r : Fin 32768) (q : Fin 200) :
    samplesArr W x u (ix2 r q) = samples W (fun k => x (ix2 r k)) (fun s k => u (ix3 r s k)) q := rfl

theorem predsArr_apply (W : Weights) (x : (⟨2, ![32768, 200]⟩ : Shape).Idx → EReal)
    (u : (⟨3, ![32768, 10, 200]⟩ : Shape).Idx → EReal) (r : Fin 32768) (q : Fin 2) :
    predsArr W x u (ix2 r q) = preds W (fun k => x (ix2 r k)) (fun s k => u (ix3 r s k)) q := rfl

/-! ## The laws between two spellings -/

/-- The pattern of minus infinity denotes the bottom of the extended reals. -/
theorem negInf_eq : Ideal.ofBits .f32 0xFF800000#32 = (⊥ : EReal) := by
  simp [Ideal.ofBits, Ideal.ieee]

/-- A maximum with minus infinity is the other operand. -/
theorem max_negInf (y : EReal) : max (Ideal.ofBits .f32 0xFF800000#32) y = y := by
  rw [negInf_eq]; exact max_eq_right bot_le

/-- Subtracting from zero negates, at the infinities too. -/
theorem zero_sub_eq (x : EReal) : (0 : EReal) - x = -x := by
  rw [sub_eq_add_neg, zero_add]

/-- Dividing by one half doubles, at the infinities too. -/
theorem div_half (x : EReal) :
    Ideal.div x (Ideal.ofBits .f32 0x3F000000#32) = x * Ideal.ofBits .f32 0x40000000#32 := by
  have h1 : Ideal.ofBits .f32 0x3F000000#32 = (((1 / 2 : ℝ)) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  rw [h1, h2, Ideal.div_coe (by norm_num)]
  norm_num

/-- Over ten draws, the maximum folded from minus infinity is the chain of nine binary maxima. -/
theorem fold_max_ten (f : Fin 10 → EReal) :
    (Finset.univ : Finset (Fin 10)).fold max (Ideal.ofBits .f32 0xFF800000#32) f
      = max (max (max (max (max (max (max (max (max (f 0) (f 1)) (f 2)) (f 3)) (f 4)) (f 5)) (f 6)) (f 7)) (f 8)) (f 9) := by
  rw [negInf_eq]
  refine eq_of_forall_ge_iff fun c => ?_
  rw [Finset.fold_max_le]
  simp only [max_le_iff]
  constructor
  · rintro ⟨-, h⟩
    have g := fun k => h k (Finset.mem_univ k)
    exact ⟨⟨⟨⟨⟨⟨⟨⟨⟨g 0, g 1⟩, g 2⟩, g 3⟩, g 4⟩, g 5⟩, g 6⟩, g 7⟩, g 8⟩, g 9⟩
  · rintro ⟨⟨⟨⟨⟨⟨⟨⟨⟨h0, h1⟩, h2⟩, h3⟩, h4⟩, h5⟩, h6⟩, h7⟩, h8⟩, h9⟩
    refine ⟨bot_le, fun k _ => ?_⟩
    fin_cases k
    · exact h0
    · exact h1
    · exact h2
    · exact h3
    · exact h4
    · exact h5
    · exact h6
    · exact h7
    · exact h8
    · exact h9

end Cert.Selector

end
-- ==== Proof.LibColumnForms.lean ====
/-
  Column ("keepdims") forms of two layout operations, read at an index. The library reads a vector cast to a ROW
  [1, a] and a row [1, b] broadcast over many rows; these are the same two facts for a COLUMN: a vector of length `a`
  cast to [a, 1], and a column [a, 1] broadcast over `b` lanes.
-/
import Idealize.ShloMosaic.Lib.Pipeline.Value
import Idealize.ShloMosaic.Lib.ValueIdx

namespace Idealize.ShloMosaic.ValueLayout

open Idealize.ShloMosaic Idealize.ShloMosaic.ValueIdx

variable {α : Type}

/-- An `[a]` array cast to the column `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueLayout
-- ==== Proof.BlockOps.lean ====
/-
  Blocks of rows as the vector unit computes on them, read entry by entry.

  A block is an [A, B] array of extended reals: A rows, B lanes.  The facts here say what three vector-level
  computations hold at entry (p, q) in terms of row p alone:
  * a maximum or a sum along the lanes, at row p, is the row's maximum (folded from minus infinity) or the row's sum;
  * the softmax written with keepdims reductions (reduce along the lanes, cast the [A] result to a column [A, 1],
    broadcast the column back over the lanes) is the softmax of row p;
  * a matrix product into a zero accumulator plus a bias row broadcast down the rows is the affine layer applied
    to row p of the left operand.
-/
import Idealize.ShloMosaic.PureOps.Ideal.Laws
import Idealize.ShloMosaic.Lib.ValueIdx
import Idealize.ShloMosaic.Lib.ValueLayout
import Idealize.ShloMosaic.Lib.Pipeline.Value
import proofs.«123612_j79577154060806_2_alg».proof.Proof.Spec
import proofs.«123612_j79577154060806_2_alg».proof.Proof.LibColumnForms

noncomputable section

namespace Cert.Selector

open Idealize.ShloMosaic Idealize.ShloMosaic.ValueIdx Idealize.ShloMosaic.ValueLayout

variable {A B : ℕ}

/-! ## Reductions along the lanes -/

/-- Row p with lane coordinate k put back is entry (p, k). -/
theorem lift_lane (h : (⟨2, ![A, B]⟩ : Shape).Reduces [1] (⟨1, ![A]⟩ : Shape)) (p : Fin A)
    (k : Fin ((⟨2, ![A, B]⟩ : Shape).size 1)) : h.lift (ix1 p) k = ix2 p (⟨k.val, k.isLt⟩ : Fin B) := by
  funext c; apply Fin.ext
  fin_cases c <;> rfl

/-- The maximum along the lanes, at row p, is the row's maximum. -/
theorem laneMax_apply (src : FVec Ideal ⟨2, ![A, B]⟩ .f32) (hR : (⟨2, ![A, B]⟩ : Shape).Reduces [1] ⟨1, ![A]⟩)
    (hφ : FKind.Formats .f32) (hacc : (0xFF800000#32 : BitVec 32) = FKind.maximumf.neutral .f32 hφ) (p : Fin A) :
    multiReduction .maximumf [1] ⟨1, ![A]⟩ src 0xFF800000#32 hR hφ hacc (ix1 p)
      = rowMax fun k : Fin B => src (ix2 p k) := by
  refine (Ideal.multiReduction_maximumf_single src _ hR hφ hacc (ix1 p)).trans ?_
  exact congrArg (fun f : Fin B → EReal =>
      (Finset.univ : Finset (Fin B)).fold max (Ideal.ofBits .f32 0xFF800000#32) f)
    (funext fun k => congrArg src (lift_lane hR p k))

/-- The sum along the lanes, at row p, is the row's sum. -/
theorem laneSum_apply (src : FVec Ideal ⟨2, ![A, B]⟩ .f32) (hR : (⟨2, ![A, B]⟩ : Shape).Reduces [1] ⟨1, ![A]⟩)
    (hφ : FKind.Formats .f32) (hacc : (0x00000000#32 : BitVec 32) = FKind.add.neutral .f32 hφ) (p : Fin A) :
    multiReduction .add [1] ⟨1, ![A]⟩ src 0x00000000#32 hR hφ hacc (ix1 p) = ∑ k : Fin B, src (ix2 p k) := by
  refine (Ideal.multiReduction_add_single src _ hR hφ hacc (ix1 p)).trans ?_
  exact Finset.sum_congr rfl fun k _ => congrArg src (lift_lane hR p k)

/-! ## The keepdims softmax of a block -/

/-- The softmax along the lanes as the vector operations compute it: the lanes' maximum as a column broadcast back,
    subtracted; the exponential; the lanes' sum as a column broadcast back, divided by. -/
def softmaxBlk (hR : (⟨2, ![A, B]⟩ : Shape).Reduces [1] ⟨1, ![A]⟩) (hC : (⟨1, ![A]⟩ : Shape).ShapeCasts ⟨2, ![A, 1]⟩)
    (hB : (⟨2, ![A, 1]⟩ : Shape).Broadcasts ⟨2, ![A, B]⟩) (nz : FVec Ideal ⟨2, ![A, B]⟩ .f32) :
    FVec Ideal ⟨2, ![A, B]⟩ .f32 :=
  divf (exp (subf nz (broadcastTo ⟨2, ![A, B]⟩ (shapeCast ⟨2, ![A, 1]⟩
      (multiReduction .maximumf [1] ⟨1, ![A]⟩ nz 0xFF800000#32 hR (.inl rfl) rfl) hC) hB)))
    (broadcastTo ⟨2, ![A, B]⟩ (shapeCast ⟨2, ![A, 1]⟩
      (multiReduction .add [1] ⟨1, ![A]⟩
        (exp (subf nz (broadcastTo ⟨2, ![A, B]⟩ (shapeCast ⟨2, ![A, 1]⟩
          (multiReduction .maximumf [1] ⟨1, ![A]⟩ nz 0xFF800000#32 hR (.inl rfl) rfl) hC) hB)))
        0x00000000#32 hR (.inl rfl) rfl) hC) hB)

/-- Entry (p, q) of the block's softmax is the softmax of row p at q. -/
theorem softmaxBlk_apply (hR : (⟨2, ![A, B]⟩ : Shape).Reduces [1] ⟨1, ![A]⟩)
    (hC : (⟨1, ![A]⟩ : Shape).ShapeCasts ⟨2, ![A, 1]⟩) (hB : (⟨2, ![A, 1]⟩ : Shape).Broadcasts ⟨2, ![A, B]⟩)
    (nz : FVec Ideal ⟨2, ![A, B]⟩ .f32) (p : Fin A) (q : Fin B) :
    softmaxBlk hR hC hB nz (ix2 p q) = softmax (fun k : Fin B => nz (ix2 p k)) q := by
  have hM : ∀ k : Fin B, broadcastTo ⟨2, ![A, B]⟩ (shapeCast ⟨2, ![A, 1]⟩
      (multiReduction .maximumf [1] ⟨1, ![A]⟩ nz 0xFF800000#32 hR (.inl rfl) rfl) hC) hB (ix2 p k)
        = rowMax fun k : Fin B => nz (ix2 p k) := fun k => by
    rw [broadcastTo_a1_ab_apply, shapeCast_a_a1_apply]
    exact laneMax_apply nz hR _ _ p
  unfold softmaxBlk softmax
  refine (divf_apply _ _ (ix2 p q)).trans ?_
  refine congrArg₂ Ideal.div ?_ ?_
  · show Ideal.exp (nz (ix2 p q) - _) = _
    rw [hM q]
  · rw [broadcastTo_a1_ab_apply, shapeCast_a_a1_apply]
    refine (laneSum_apply _ hR _ _ p).trans ?_
    refine Finset.sum_congr rfl fun k _ => ?_
    show Ideal.exp (nz (ix2 p k) - _) = _
    rw [hM k]

/-! ## An affine layer on a block -/

variable {K N : ℕ} {φ₁ φ₂ : FTy}

/-- A matrix product into a zero accumulator, plus a bias row broadcast down the rows. -/
def denseBlk (D : DotDims ⟨2, ![A, K]⟩ ⟨2, ![K, N]⟩ ⟨2, ![A, N]⟩) (hC : (⟨1, ![N]⟩ : Shape).ShapeCasts ⟨2, ![1, N]⟩)
    (hB : (⟨2, ![1, N]⟩ : Shape).Broadcasts ⟨2, ![A, N]⟩) (lhs : FVec Ideal ⟨2, ![A, K]⟩ φ₁)
    (rhs : FVec Ideal ⟨2, ![K, N]⟩ φ₂) (b : FVec Ideal ⟨1, ![N]⟩ .f32) : FVec Ideal ⟨2, ![A, N]⟩ .f32 :=
  addf (matmul D none lhs rhs (constant ⟨2, ![A, N]⟩ .f32 0x00000000#32))
    (broadcastTo ⟨2, ![A, N]⟩ (shapeCast ⟨2, ![1, N]⟩ b hC) hB)

/-- Entry (p, j) of the layer's block is the affine layer applied to row p of the left operand, for dimension numbers
    that contract the left operand's lanes with the right operand's rows. -/
theorem denseBlk_apply (D : DotDims ⟨2, ![A, K]⟩ ⟨2, ![K, N]⟩ ⟨2, ![A, N]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hC : (⟨1, ![N]⟩ : Shape).ShapeCasts ⟨2, ![1, N]⟩) (hB : (⟨2, ![1, N]⟩ : Shape).Broadcasts ⟨2, ![A, N]⟩)
    (lhs : FVec Ideal ⟨2, ![A, K]⟩ φ₁) (rhs : FVec Ideal ⟨2, ![K, N]⟩ φ₂) (b : FVec Ideal ⟨1, ![N]⟩ .f32)
    (p : Fin A) (j : Fin N) :
    denseBlk D hC hB lhs rhs b (ix2 p j)
      = dense (fun k : Fin K => lhs (ix2 p k)) (fun (k : Fin K) (j : Fin N) => rhs (ix2 k j)) (fun j => b (ix1 j)) j := by
  unfold denseBlk dense
  refine (addf_apply _ _ (ix2 p j)).trans ?_
  refine congrArg₂ (· + ·) ?_ ?_
  · refine (Ideal.matmul_constant_zero_apply D none lhs rhs (ix2 p j)).trans ?_
    rw [← Equiv.sum_comp (contrEquiv1 D K hr hs).symm]
    refine Finset.sum_congr rfl fun k _ => ?_
    have hk := contrEquiv1_symm_val D K hr hs k
    have el : D.lhsIdx (ix2 p j) ((contrEquiv1 D K hr hs).symm k) = ix2 p k := funext fun a => Fin.ext (by
      match a with
      | ⟨0, _⟩ => exact hl0 _ _
      | ⟨1, _⟩ => exact (hl1 _ _).trans hk)
    have er : D.rhsIdx (ix2 p j) ((contrEquiv1 D K hr hs).symm k) = ix2 k j := funext fun a => Fin.ext (by
      match a with
      | ⟨0, _⟩ => exact (hr0 _ _).trans hk
      | ⟨1, _⟩ => exact hr1 _ _)
    rw [el, er]
  · rw [broadcastTo_1b_ab_apply, shapeCast_a_1a_apply]

end Cert.Selector

end
-- ==== Proof.LibMiddleUnitAxis.lean ====
/-
  A middle unit axis dropped, read at an index: an [a, 1, c] array cast to [a, c] holds at (r, k) what the source
  holds at (r, 0, k), both sitting at row-major position r·c + k.  (The library reads a LEADING unit axis dropped;
  a slice of one sample out of an [a, s, c] block arrives with the unit axis in the middle.)
-/
import Idealize.ShloMosaic.Lib.Pipeline.Value
import Idealize.ShloMosaic.Lib.ValueIdx

namespace Idealize.ShloMosaic.ValueLayout

open Idealize.ShloMosaic Idealize.ShloMosaic.ValueIdx

variable {α : Type}

/-- Entry (r, k) of the [a, c] array is entry (r, 0, k) of the [a, 1, c] one. -/
theorem shapeCast_a1c_ac_apply {a c : ℕ} (x : (⟨3, ![a, 1, c]⟩ : Shape).Idx → α)
    (h : (⟨3, ![a, 1, c]⟩ : Shape).ShapeCasts ⟨2, ![a, c]⟩) (r : Fin a) (k : Fin c) :
    shapeCast ⟨2, ![a, c]⟩ x h (ix2 r k) = x (ix3 r (0 : Fin 1) k) :=
  shapeCast_apply x h _ _ (by
    rw [Shape.rowMajor_val_three, Shape.rowMajor_val_two]
    show (r.val * 1 + 0) * c + k.val = r.val * c + k.val
    rw [Nat.mul_one, Nat.add_zero])

end Idealize.ShloMosaic.ValueLayout
-- ==== Proof.KernelPayload.lean ====
/-
  What the kernel body computes on one block of 1024 rows, read entry by entry.

  The body's arithmetic is a chain of pure terms over the loaded blocks.  Regrouped by meaning it is: the logits of
  the block (three matrix products with bias rows, a rectifier after the first two; the narrowing of the operands to
  bf16 is the identity on the extended reals); for each of the ten draws the noisy logits and their softmax along the
  lanes; the running maximum of the ten softmax blocks; and the two-class softmax of (x * weights) · W_o + b_o.
  Each regrouping is by unfolding alone.  Entry (p, q) of each block is then the row function of Spec applied to
  row p of the operands.
-/
import proofs.«123612_j79577154060806_2_alg».proof.Proof.Gen.KernelIdeal.Skeleton
import proofs.«123612_j79577154060806_2_alg».proof.Proof.BlockOps
import proofs.«123612_j79577154060806_2_alg».proof.Proof.LibMiddleUnitAxis

noncomputable section

namespace Cert.KernelIdeal.Hand

open Idealize.ShloMosaic Idealize.ShloMosaic.ValueIdx Idealize.ShloMosaic.ValueLayout
open Cert.KernelIdeal Cert.KernelIdeal.Gen Cert.Selector

/-! ## The body's blocks, named -/

/-- One draw's noisy logits on the block: the [1024, 1, 200] slice of the draws cast to [1024, 200], clipped into
    [eps, 1], turned into Gumbel noise by two logarithms and two subtractions from zero, added to the logits, doubled. -/
def noisyBlk (L : FVec Ideal S1024x200 .f32) (u : FVec Ideal S1024x1x200 .f32) : FVec Ideal S1024x200 .f32 :=
  mulf (addf (subf (broadcast S1024x200 (Scalar.ofBits (F := Ideal) .f32 0x00000000#32))
      (log (subf (broadcast S1024x200 (Scalar.ofBits (F := Ideal) .f32 0x00000000#32))
        (log (minimumf (broadcast S1024x200 (Scalar.ofBits (F := Ideal) .f32 0x3F800000#32))
          (maximumf (broadcast S1024x200 (Scalar.ofBits (F := Ideal) .f32 0x34000000#32))
            (shapeCast S1024x200 u shapeCasts_S1024x1x200_S1024x200))))))) L)
    (broadcast S1024x200 (Scalar.ofBits (F := Ideal) .f32 0x40000000#32))

/-- One draw's softmax block. -/
def softBlk (L : FVec Ideal S1024x200 .f32) (u : FVec Ideal S1024x1x200 .f32) : FVec Ideal S1024x200 .f32 :=
  softmaxBlk reduces_S1024x200_S1024 shapeCasts_S1024_S1024x1 broadcasts_S1024x1_S1024x200 (noisyBlk L u)

/-- The logits block: three affine layers, a rectifier after the first two. -/
def logitsBlk (x : FVec Ideal S1024x200 .f32) (w1 : FVec Ideal S200x100 .bf16) (b1 : FVec Ideal S100 .f32)
    (w2 : FVec Ideal S100x100 .bf16) (b2 : FVec Ideal S100 .f32) (wl : FVec Ideal S100x200 .bf16)
    (bl : FVec Ideal S200 .f32) : FVec Ideal S1024x200 .f32 :=
  denseBlk dot_S1024x100_S100x200_S1024x200_1_0_0_1_n_n shapeCasts_S200_S1x200 broadcasts_S1x200_S1024x200
    (truncf .bf16 (maximumf
      (denseBlk dot_S1024x100_S100x100_S1024x100_1_0_0_1_n_n shapeCasts_S100_S1x100 broadcasts_S1x100_S1024x100
        (truncf .bf16 (maximumf
          (denseBlk dot_S1024x200_S200x100_S1024x100_1_0_0_1_n_n shapeCasts_S100_S1x100 broadcasts_S1x100_S1024x100
            (truncf .bf16 x bitsLt_bf16_f32) (shapeCast S200x100 w1 shapeCasts_S200x100_S200x100) b1)
          (broadcast S1024x100 (Scalar.ofBits (F := Ideal) .f32 0x00000000#32))) bitsLt_bf16_f32)
        (shapeCast S100x100 w2 shapeCasts_S100x100_S100x100) b2)
      (broadcast S1024x100 (Scalar.ofBits (F := Ideal) .f32 0x00000000#32))) bitsLt_bf16_f32)
    (shapeCast S100x200 wl shapeCasts_S100x200_S100x200) bl

/-- The prediction block from the sample-weight block s: the two-class softmax of (x * s) · W_o + b_o. -/
def predsBlk (x s : FVec Ideal S1024x200 .f32) (wo : FVec Ideal S200x2 .bf16) (bo : FVec Ideal S2 .f32) :
    FVec Ideal S1024x2 .f32 :=
  softmaxBlk reduces_S1024x2_S1024 shapeCasts_S1024_S1024x1 broadcasts_S1024x1_S1024x2
    (denseBlk dot_S1024x200_S200x2_S1024x2_1_0_0_1_n_n shapeCasts_S2_S1x2 broadcasts_S1x2_S1024x2
      (truncf .bf16 (mulf x s) bitsLt_bf16_f32) (shapeCast S200x2 wo shapeCasts_S200x2_S200x2) bo)

/-! ## The payloads are those blocks -/

theorem pay_logits (x : FVec Ideal S1024x200 .f32) (w1 : FVec Ideal S200x100 .bf16) (b1 : FVec Ideal S100 .f32)
    (w2 : FVec Ideal S100x100 .bf16) (b2 : FVec Ideal S100 .f32) (wl : FVec Ideal S100x200 .bf16)
    (bl : FVec Ideal S200 .f32) : k0_pay1 x w1 b1 w2 b2 wl bl = logitsBlk x w1 b1 w2 b2 wl bl := rfl

/-- The stored sample weights: the running maximum of the ten draws' softmax blocks. -/
theorem pay_samples (L : FVec Ideal S1024x200 .f32) (u0 u1 u2 u3 u4 u5 u6 u7 u8 u9 : FVec Ideal S1024x1x200 .f32) :
    k0_pay14 L (k0_pay13 L (k0_pay10 L (k0_pay8 L (k0_pay6 L (k0_pay4 L (k0_pay2 u0) (k0_pay3 (F := Ideal)) u1) (k0_pay5 u2)) (k0_pay7 L u3) u4) (k0_pay9 L u5) u6) (k0_pay11 u7) (k0_pay12 (F := Ideal)) u8) u9
      = maximumf (maximumf (maximumf (maximumf (maximumf (maximumf (maximumf (maximumf (maximumf (softBlk L u0) (softBlk L u1)) (softBlk L u2)) (softBlk L u3)) (softBlk L u4)) (softBlk L u5)) (softBlk L u6)) (softBlk L u7)) (softBlk L u8)) (softBlk L u9) := rfl

/-- The stored predictions, from the same running maximum. -/
theorem pay_preds (x L : FVec Ideal S1024x200 .f32) (u0 u1 u2 u3 u4 u5 u6 u7 u8 u9 : FVec Ideal S1024x1x200 .f32)
    (wo : FVec Ideal S200x2 .bf16) (bo : FVec Ideal S2 .f32) :
    k0_pay15 x L (k0_pay13 L (k0_pay10 L (k0_pay8 L (k0_pay6 L (k0_pay4 L (k0_pay2 u0) (k0_pay3 (F := Ideal)) u1) (k0_pay5 u2)) (k0_pay7 L u3) u4) (k0_pay9 L u5) u6) (k0_pay11 u7) (k0_pay12 (F := Ideal)) u8) u9 wo bo
      = predsBlk x (maximumf (maximumf (maximumf (maximumf (maximumf (maximumf (maximumf (maximumf (maximumf (softBlk L u0) (softBlk L u1)) (softBlk L u2)) (softBlk L u3)) (softBlk L u4)) (softBlk L u5)) (softBlk L u6)) (softBlk L u7)) (softBlk L u8)) (softBlk L u9)) wo bo := rfl

/-! ## The blocks at an entry -/

/-- Entry (p, k) of one draw's noisy logits. -/
theorem noisyBlk_apply (L : FVec Ideal S1024x200 .f32) (u : FVec Ideal S1024x1x200 .f32) (p : Fin 1024) (k : Fin 200) :
    noisyBlk L u (ix2 p k) = noisy (fun k => L (ix2 p k)) (fun k => u (ix3 p (0 : Fin 1) k)) k := by
  unfold noisyBlk noisy gumbel
  show (Ideal.ofBits .f32 0x00000000#32 - Ideal.log (Ideal.ofBits .f32 0x00000000#32
      - Ideal.log (min (Ideal.ofBits .f32 0x3F800000#32) (max (Ideal.ofBits .f32 0x34000000#32)
          (shapeCast S1024x200 u shapeCasts_S1024x1x200_S1024x200 (ix2 p k))))) + L (ix2 p k))
      * Ideal.ofBits .f32 0x40000000#32 = _
  rw [shapeCast_a1c_ac_apply, Ideal.ofBits_zero_f32, zero_sub_eq, zero_sub_eq]

/-- Entry (p, q) of one draw's softmax block. -/
theorem softBlk_apply (L : FVec Ideal S1024x200 .f32) (u : FVec Ideal S1024x1x200 .f32) (p : Fin 1024) (q : Fin 200) :
    softBlk L u (ix2 p q) = softmax (noisy (fun k => L (ix2 p k)) (fun k => u (ix3 p (0 : Fin 1) k))) q :=
  (softmaxBlk_apply _ _ _ (noisyBlk L u) p q).trans
    (congrArg (fun f : Fin 200 → EReal => softmax f q) (funext fun k => noisyBlk_apply L u p k))

/-- Entry (p, q) of the running maximum over the ten draws: the maximum, folded from minus infinity, of the ten
    softmax values, draw s read from row p of its own slice. -/
theorem maxBlk_apply (L : FVec Ideal S1024x200 .f32) (u0 u1 u2 u3 u4 u5 u6 u7 u8 u9 : FVec Ideal S1024x1x200 .f32)
    (U : Fin 10 → Fin 200 → EReal) (p : Fin 1024)
    (h0 : ∀ k, u0 (ix3 p (0 : Fin 1) k) = U 0 k)
    (h1 : ∀ k, u1 (ix3 p (0 : Fin 1) k) = U 1 k)
    (h2 : ∀ k, u2 (ix3 p (0 : Fin 1) k) = U 2 k)
    (h3 : ∀ k, u3 (ix3 p (0 : Fin 1) k) = U 3 k)
    (h4 : ∀ k, u4 (ix3 p (0 : Fin 1) k) = U 4 k)
    (h5 : ∀ k, u5 (ix3 p (0 : Fin 1) k) = U 5 k)
    (h6 : ∀ k, u6 (ix3 p (0 : Fin 1) k) = U 6 k)
    (h7 : ∀ k, u7 (ix3 p (0 : Fin 1) k) = U 7 k)
    (h8 : ∀ k, u8 (ix3 p (0 : Fin 1) k) = U 8 k)
    (h9 : ∀ k, u9 (ix3 p (0 : Fin 1) k) = U 9 k) (q : Fin 200) :
    (maximumf (maximumf (maximumf (maximumf (maximumf (maximumf (maximumf (maximumf (maximumf (softBlk L u0) (softBlk L u1)) (softBlk L u2)) (softBlk L u3)) (softBlk L u4)) (softBlk L u5)) (softBlk L u6)) (softBlk L u7)) (softBlk L u8)) (softBlk L u9)) (ix2 p q)
      = (Finset.univ : Finset (Fin 10)).fold max (Ideal.ofBits .f32 0xFF800000#32)
          (fun s : Fin 10 => softmax (noisy (fun k => L (ix2 p k)) (U s)) q) := by
  rw [fold_max_ten]
  show max (max (max (max (max (max (max (max (max (softBlk L u0 (ix2 p q)) (softBlk L u1 (ix2 p q))) (softBlk L u2 (ix2 p q))) (softBlk L u3 (ix2 p q))) (softBlk L u4 (ix2 p q))) (softBlk L u5 (ix2 p q))) (softBlk L u6 (ix2 p q))) (softBlk L u7 (ix2 p q))) (softBlk L u8 (ix2 p q))) (softBlk L u9 (ix2 p q)) = _
  rw [softBlk_apply L u0 p q, funext h0, softBlk_apply L u1 p q, funext h1, softBlk_apply L u2 p q, funext h2, softBlk_apply L u3 p q, funext h3, softBlk_apply L u4 p q, funext h4, softBlk_apply L u5 p q, funext h5, softBlk_apply L u6 p q, funext h6, softBlk_apply L u7 p q, funext h7, softBlk_apply L u8 p q, funext h8, softBlk_apply L u9 p q, funext h9]

theorem D1_l1 (i : S1024x100.Idx) (q : dot_S1024x200_S200x100_S1024x100_1_0_0_1_n_n.contr.Idx) :
    (dot_S1024x200_S200x100_S1024x100_1_0_0_1_n_n.lhsIdx i q 1).val = (q ⟨0, by decide⟩).val := dot_S1024x200_S200x100_S1024x100_1_0_0_1_n_n.lhsIdx_val_of_single rfl i q
theorem D1_r0 (i : S1024x100.Idx) (q : dot_S1024x200_S200x100_S1024x100_1_0_0_1_n_n.contr.Idx) :
    (dot_S1024x200_S200x100_S1024x100_1_0_0_1_n_n.rhsIdx i q 0).val = (q ⟨0, by decide⟩).val := dot_S1024x200_S200x100_S1024x100_1_0_0_1_n_n.rhsIdx_val_of_single rfl i q
theorem D2_l1 (i : S1024x100.Idx) (q : dot_S1024x100_S100x100_S1024x100_1_0_0_1_n_n.contr.Idx) :
    (dot_S1024x100_S100x100_S1024x100_1_0_0_1_n_n.lhsIdx i q 1).val = (q ⟨0, by decide⟩).val := dot_S1024x100_S100x100_S1024x100_1_0_0_1_n_n.lhsIdx_val_of_single rfl i q
theorem D2_r0 (i : S1024x100.Idx) (q : dot_S1024x100_S100x100_S1024x100_1_0_0_1_n_n.contr.Idx) :
    (dot_S1024x100_S100x100_S1024x100_1_0_0_1_n_n.rhsIdx i q 0).val = (q ⟨0, by decide⟩).val := dot_S1024x100_S100x100_S1024x100_1_0_0_1_n_n.rhsIdx_val_of_single rfl i q
theorem D3_l1 (i : S1024x200.Idx) (q : dot_S1024x100_S100x200_S1024x200_1_0_0_1_n_n.contr.Idx) :
    (dot_S1024x100_S100x200_S1024x200_1_0_0_1_n_n.lhsIdx i q 1).val = (q ⟨0, by decide⟩).val := dot_S1024x100_S100x200_S1024x200_1_0_0_1_n_n.lhsIdx_val_of_single rfl i q
theorem D3_r0 (i : S1024x200.Idx) (q : dot_S1024x100_S100x200_S1024x200_1_0_0_1_n_n.contr.Idx) :
    (dot_S1024x100_S100x200_S1024x200_1_0_0_1_n_n.rhsIdx i q 0).val = (q ⟨0, by decide⟩).val := dot_S1024x100_S100x200_S1024x200_1_0_0_1_n_n.rhsIdx_val_of_single rfl i q
theorem D4_l1 (i : S1024x2.Idx) (q : dot_S1024x200_S200x2_S1024x2_1_0_0_1_n_n.contr.Idx) :
    (dot_S1024x200_S200x2_S1024x2_1_0_0_1_n_n.lhsIdx i q 1).val = (q ⟨0, by decide⟩).val := dot_S1024x200_S200x2_S1024x2_1_0_0_1_n_n.lhsIdx_val_of_single rfl i q
theorem D4_r0 (i : S1024x2.Idx) (q : dot_S1024x200_S200x2_S1024x2_1_0_0_1_n_n.contr.Idx) :
    (dot_S1024x200_S200x2_S1024x2_1_0_0_1_n_n.rhsIdx i q 0).val = (q ⟨0, by decide⟩).val := dot_S1024x200_S200x2_S1024x2_1_0_0_1_n_n.rhsIdx_val_of_single rfl i q

/-- An affine layer depends on its row, its matrix and its bias entry by entry. -/
theorem dense_congr {n k : ℕ} {v v' : Fin n → EReal} {M M' : Fin n → Fin k → EReal} {b b' : Fin k → EReal}
    (hv : ∀ i, v i = v' i) (hM : ∀ i j, M i j = M' i j) (hb : ∀ j, b j = b' j) (j : Fin k) :
    dense v M b j = dense v' M' b' j := by
  rw [show v = v' from funext hv, show M = M' from funext fun i => funext (hM i), show b = b' from funext hb]

/-- Entry (p, q) of the logits block: the logits of row p. -/
theorem logitsBlk_apply (x : FVec Ideal S1024x200 .f32) (w1 : FVec Ideal S200x100 .bf16) (b1 : FVec Ideal S100 .f32)
    (w2 : FVec Ideal S100x100 .bf16) (b2 : FVec Ideal S100 .f32) (wl : FVec Ideal S100x200 .bf16)
    (bl : FVec Ideal S200 .f32) (W : Weights)
    (hw1 : ∀ a b, w1 (ix2 a b) = W.w1 a b) (hb1 : ∀ j, b1 (ix1 j) = W.b1 j)
    (hw2 : ∀ a b, w2 (ix2 a b) = W.w2 a b) (hb2 : ∀ j, b2 (ix1 j) = W.b2 j)
    (hwl : ∀ a b, wl (ix2 a b) = W.wl a b) (hbl : ∀ j, bl (ix1 j) = W.bl j) (p : Fin 1024) (q : Fin 200) :
    logitsBlk x w1 b1 w2 b2 wl bl (ix2 p q) = logits W (fun k => x (ix2 p k)) q := by
  unfold logitsBlk logits
  refine (denseBlk_apply dot_S1024x100_S100x200_S1024x200_1_0_0_1_n_n rfl rfl (fun _ _ => rfl) D3_l1 D3_r0 (fun _ _ => rfl) _ _ _ _ _ p q).trans
    (dense_congr (fun k2 => ?_) (fun a b => ?_) hbl q)
  · show max (denseBlk dot_S1024x100_S100x100_S1024x100_1_0_0_1_n_n _ _ _ _ b2 (ix2 p k2)) (Ideal.ofBits .f32 0x00000000#32) = _
    rw [Ideal.ofBits_zero_f32]
    refine congrArg (fun t : EReal => max t 0) ?_
    refine (denseBlk_apply dot_S1024x100_S100x100_S1024x100_1_0_0_1_n_n rfl rfl (fun _ _ => rfl) D2_l1 D2_r0 (fun _ _ => rfl) _ _ _ _ _ p k2).trans
      (dense_congr (fun k1 => ?_) (fun a b => ?_) hb2 k2)
    · show max (denseBlk dot_S1024x200_S200x100_S1024x100_1_0_0_1_n_n _ _ _ _ b1 (ix2 p k1)) (Ideal.ofBits .f32 0x00000000#32) = _
      rw [Ideal.ofBits_zero_f32]
      refine congrArg (fun t : EReal => max t 0) ?_
      refine (denseBlk_apply dot_S1024x200_S200x100_S1024x100_1_0_0_1_n_n rfl rfl (fun _ _ => rfl) D1_l1 D1_r0 (fun _ _ => rfl) _ _ _ _ _ p k1).trans
        (dense_congr (fun _ => rfl) (fun a b => ?_) hb1 k1)
      rw [shapeCast_self]; exact hw1 a b
    · rw [shapeCast_self]; exact hw2 a b
  · rw [shapeCast_self]; exact hwl a b

/-- Entry (p, q) of the prediction block: the two-class softmax of the output layer applied to row p of x * s. -/
theorem predsBlk_apply (x s : FVec Ideal S1024x200 .f32) (wo : FVec Ideal S200x2 .bf16) (bo : FVec Ideal S2 .f32)
    (W : Weights) (hwo : ∀ a b, wo (ix2 a b) = W.wo a b) (hbo : ∀ j, bo (ix1 j) = W.bo j) (p : Fin 1024) (q : Fin 2) :
    predsBlk x s wo bo (ix2 p q) = softmax (dense (fun k => x (ix2 p k) * s (ix2 p k)) W.wo W.bo) q := by
  unfold predsBlk
  refine (softmaxBlk_apply _ _ _ _ p q).trans (congrArg (fun f : Fin 2 → EReal => softmax f q) (funext fun j => ?_))
  refine (denseBlk_apply dot_S1024x200_S200x2_S1024x2_1_0_0_1_n_n rfl rfl (fun _ _ => rfl) D4_l1 D4_r0 (fun _ _ => rfl) _ _ _ _ _ p j).trans
    (dense_congr (fun _ => rfl) (fun a b => ?_) hbo j)
  rw [shapeCast_self]; exact hwo a b

end Cert.KernelIdeal.Hand

end
-- ==== Proof.KernelValue.lean ====
/-
  From the blocks to the two result arrays.

  The grid has 32 points; point t works on rows 1024·t … 1024·t + 1023.  Its blocks of x and of the draws are those rows
  of the two arrays; its blocks of the weights are the whole weight arrays (the four matrices after the host's
  narrowing to bf16, which is the identity on the extended reals).  What the body stores, read at row p of the block,
  is therefore the sample weights and the prediction of row 1024·t + p of the arrays; the 32 blocks of each result
  tile its array, so after the run each result array is the row function applied row by row.
-/
import proofs.«123612_j79577154060806_2_alg».proof.Proof.Gen.KernelIdeal.Frame
import proofs.«123612_j79577154060806_2_alg».proof.Proof.KernelPayload
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.Hand

open Idealize.ShloMosaic.ValueIdx Idealize.ShloMosaic.ValueLayout
open Cert.KernelIdeal Cert.KernelIdeal.Gen Cert.Selector

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl

/-- The block index of every window at every grid point: the row-blocked windows sit at block t along the rows, every
    other coordinate of every window is 0. -/
theorem idx_facts : ∀ t : Fin cfg0.N,
    win0_0.index t (0 : Fin 2) = t.val
    ∧ win0_0.index t (1 : Fin 2) = 0
    ∧ win0_1.index t (0 : Fin 3) = t.val
    ∧ win0_1.index t (1 : Fin 3) = 0
    ∧ win0_1.index t (2 : Fin 3) = 0
    ∧ win0_2.index t (0 : Fin 2) = 0
    ∧ win0_2.index t (1 : Fin 2) = 0
    ∧ win0_3.index t (0 : Fin 1) = 0
    ∧ win0_4.index t (0 : Fin 2) = 0
    ∧ win0_4.index t (1 : Fin 2) = 0
    ∧ win0_5.index t (0 : Fin 1) = 0
    ∧ win0_6.index t (0 : Fin 2) = 0
    ∧ win0_6.index t (1 : Fin 2) = 0
    ∧ win0_7.index t (0 : Fin 1) = 0
    ∧ win0_8.index t (0 : Fin 2) = 0
    ∧ win0_8.index t (1 : Fin 2) = 0
    ∧ win0_9.index t (0 : Fin 1) = 0
    ∧ win0_10.index t (0 : Fin 2) = t.val
    ∧ win0_10.index t (1 : Fin 2) = 0
    ∧ win0_11.index t (0 : Fin 2) = t.val
    ∧ win0_11.index t (1 : Fin 2) = 0 :=
  (by decide +kernel : ∀ t : Fin grid0.N, _)

/-! ## The narrowed weight matrices are the weight matrices -/

theorem V_main_v0 (c : Dev nD) : (V m c main_v0 : S200x100.Idx → EReal) = ((m ((c : Thread nD τ).loc main_arg2)) : S200x100.Idx → EReal) := by
  dsimp only [V, hostOps0]; after_results; rfl
theorem V_main_v1 (c : Dev nD) : (V m c main_v1 : S100x100.Idx → EReal) = ((m ((c : Thread nD τ).loc main_arg4)) : S100x100.Idx → EReal) := by
  dsimp only [V, hostOps0]; after_results; rfl
theorem V_main_v2 (c : Dev nD) : (V m c main_v2 : S100x200.Idx → EReal) = ((m ((c : Thread nD τ).loc main_arg6)) : S100x200.Idx → EReal) := by
  dsimp only [V, hostOps0]; after_results; rfl
theorem V_main_v3 (c : Dev nD) : (V m c main_v3 : S200x2.Idx → EReal) = ((m ((c : Thread nD τ).loc main_arg8)) : S200x2.Idx → EReal) := by
  dsimp only [V, hostOps0]; after_results; rfl

/-! ## Each input window's block as rows of its array -/

/-- Row p of x's block at point t is row 1024·t + p of x. -/
theorem blk0_apply (c : Dev nD) (t : Fin cfg0.N) (p : Fin 1024) (k : Fin 200) (r : Fin 32768)
    (hr : r.val = t.val * 1024 + p.val) :
    (iblk m c 0 t : Vec Ideal S1024x200 .f32) (ix2 p k) = ((m ((c : Thread nD τ).loc main_arg0)) : S32768x200.Idx → EReal) (ix2 r k) := by
  obtain ⟨f0_0, f0_1, f1_0, f1_1, f1_2, f2_0, f2_1, f3_0, f4_0, f4_1, f5_0, f6_0, f6_1, f7_0, f8_0, f8_1, f9_0, f10_0, f10_1, f11_0, f11_1⟩ := idx_facts t
  unfold iblk
  rw [View.read_apply]
  show V m c main_arg0 _ = _
  rw [V_main_arg0 m c]
  refine congrArg ((m ((c : Thread nD τ).loc main_arg0)) : S32768x200.Idx → EReal) (funext fun ax => Fin.ext ?_)
  match ax with
  | ⟨0, _⟩ => show win0_0.index t (0 : Fin 2) * 1024 + 1 * p.val = r.val; rw [f0_0, hr]; omega
  | ⟨1, _⟩ => show win0_0.index t (1 : Fin 2) * 200 + 1 * k.val = k.val; rw [f0_1]; omega

/-- Row p of the draws' block at point t is row 1024·t + p of the draws. -/
theorem blk1_apply (c : Dev nD) (t : Fin cfg0.N) (p : Fin 1024) (s : Fin 10) (k : Fin 200) (r : Fin 32768)
    (hr : r.val = t.val * 1024 + p.val) :
    (iblk m c 1 t : Vec Ideal S1024x10x200 .f32) (ix3 p s k) = ((m ((c : Thread nD τ).loc main_arg1)) : S32768x10x200.Idx → EReal) (ix3 r s k) := by
  obtain ⟨f0_0, f0_1, f1_0, f1_1, f1_2, f2_0, f2_1, f3_0, f4_0, f4_1, f5_0, f6_0, f6_1, f7_0, f8_0, f8_1, f9_0, f10_0, f10_1, f11_0, f11_1⟩ := idx_facts t
  unfold iblk
  rw [View.read_apply]
  show V m c main_arg1 _ = _
  rw [V_main_arg1 m c]
  refine congrArg ((m ((c : Thread nD τ).loc main_arg1)) : S32768x10x200.Idx → EReal) (funext fun ax => Fin.ext ?_)
  match ax with
  | ⟨0, _⟩ => show win0_1.index t (0 : Fin 3) * 1024 + 1 * p.val = r.val; rw [f1_0, hr]; omega
  | ⟨1, _⟩ => show win0_1.index t (1 : Fin 3) * 10 + 1 * s.val = s.val; rw [f1_1]; omega
  | ⟨2, _⟩ => show win0_1.index t (2 : Fin 3) * 200 + 1 * k.val = k.val; rw [f1_2]; omega

/-- Window 2's block is the whole array at every point: an entry of the block is that entry of main_arg2. -/
theorem blk2_apply (c : Dev nD) (t : Fin cfg0.N) (a : Fin 200) (b : Fin 100) :
    (iblk m c 2 t : Vec Ideal S200x100 .bf16) (ix2 a b) = ((m ((c : Thread nD τ).loc main_arg2)) : S200x100.Idx → EReal) (ix2 a b) := by
  obtain ⟨f0_0, f0_1, f1_0, f1_1, f1_2, f2_0, f2_1, f3_0, f4_0, f4_1, f5_0, f6_0, f6_1, f7_0, f8_0, f8_1, f9_0, f10_0, f10_1, f11_0, f11_1⟩ := idx_facts t
  unfold iblk
  rw [View.read_apply]
  show V m c main_v0 _ = _
  rw [V_main_v0 m c]
  refine congrArg ((m ((c : Thread nD τ).loc main_arg2)) : S200x100.Idx → EReal) (funext fun ax => Fin.ext ?_)
  match ax with
  | ⟨0, _⟩ => show win0_2.index t (0 : Fin 2) * 200 + 1 * a.val = a.val; rw [f2_0]; omega
  | ⟨1, _⟩ => show win0_2.index t (1 : Fin 2) * 100 + 1 * b.val = b.val; rw [f2_1]; omega

/-- Window 3's block is the whole array at every point: an entry of the block is that entry of main_arg3. -/
theorem blk3_apply (c : Dev nD) (t : Fin cfg0.N) (j : Fin 100) :
    (iblk m c 3 t : Vec Ideal S100 .f32) (ix1 j) = ((m ((c : Thread nD τ).loc main_arg3)) : S100.Idx → EReal) (ix1 j) := by
  obtain ⟨f0_0, f0_1, f1_0, f1_1, f1_2, f2_0, f2_1, f3_0, f4_0, f4_1, f5_0, f6_0, f6_1, f7_0, f8_0, f8_1, f9_0, f10_0, f10_1, f11_0, f11_1⟩ := idx_facts t
  unfold iblk
  rw [View.read_apply]
  show V m c main_arg3 _ = _
  rw [V_main_arg3 m c]
  refine congrArg ((m ((c : Thread nD τ).loc main_arg3)) : S100.Idx → EReal) (funext fun ax => Fin.ext ?_)
  match ax with
  | ⟨0, _⟩ => show win0_3.index t (0 : Fin 1) * 100 + 1 * j.val = j.val; rw [f3_0]; omega

/-- Window 4's block is the whole array at every point: an entry of the block is that entry of main_arg4. -/
theorem blk4_apply (c : Dev nD) (t : Fin cfg0.N) (a : Fin 100) (b : Fin 100) :
    (iblk m c 4 t : Vec Ideal S100x100 .bf16) (ix2 a b) = ((m ((c : Thread nD τ).loc main_arg4)) : S100x100.Idx → EReal) (ix2 a b) := by
  obtain ⟨f0_0, f0_1, f1_0, f1_1, f1_2, f2_0, f2_1, f3_0, f4_0, f4_1, f5_0, f6_0, f6_1, f7_0, f8_0, f8_1, f9_0, f10_0, f10_1, f11_0, f11_1⟩ := idx_facts t
  unfold iblk
  rw [View.read_apply]
  show V m c main_v1 _ = _
  rw [V_main_v1 m c]
  refine congrArg ((m ((c : Thread nD τ).loc main_arg4)) : S100x100.Idx → EReal) (funext fun ax => Fin.ext ?_)
  match ax with
  | ⟨0, _⟩ => show win0_4.index t (0 : Fin 2) * 100 + 1 * a.val = a.val; rw [f4_0]; omega
  | ⟨1, _⟩ => show win0_4.index t (1 : Fin 2) * 100 + 1 * b.val = b.val; rw [f4_1]; omega

/-- Window 5's block is the whole array at every point: an entry of the block is that entry of main_arg5. -/
theorem blk5_apply (c : Dev nD) (t : Fin cfg0.N) (j : Fin 100) :
    (iblk m c 5 t : Vec Ideal S100 .f32) (ix1 j) = ((m ((c : Thread nD τ).loc main_arg5)) : S100.Idx → EReal) (ix1 j) := by
  obtain ⟨f0_0, f0_1, f1_0, f1_1, f1_2, f2_0, f2_1, f3_0, f4_0, f4_1, f5_0, f6_0, f6_1, f7_0, f8_0, f8_1, f9_0, f10_0, f10_1, f11_0, f11_1⟩ := idx_facts t
  unfold iblk
  rw [View.read_apply]
  show V m c main_arg5 _ = _
  rw [V_main_arg5 m c]
  refine congrArg ((m ((c : Thread nD τ).loc main_arg5)) : S100.Idx → EReal) (funext fun ax => Fin.ext ?_)
  match ax with
  | ⟨0, _⟩ => show win0_5.index t (0 : Fin 1) * 100 + 1 * j.val = j.val; rw [f5_0]; omega

/-- Window 6's block is the whole array at every point: an entry of the block is that entry of main_arg6. -/
theorem blk6_apply (c : Dev nD) (t : Fin cfg0.N) (a : Fin 100) (b : Fin 200) :
    (iblk m c 6 t : Vec Ideal S100x200 .bf16) (ix2 a b) = ((m ((c : Thread nD τ).loc main_arg6)) : S100x200.Idx → EReal) (ix2 a b) := by
  obtain ⟨f0_0, f0_1, f1_0, f1_1, f1_2, f2_0, f2_1, f3_0, f4_0, f4_1, f5_0, f6_0, f6_1, f7_0, f8_0, f8_1, f9_0, f10_0, f10_1, f11_0, f11_1⟩ := idx_facts t
  unfold iblk
  rw [View.read_apply]
  show V m c main_v2 _ = _
  rw [V_main_v2 m c]
  refine congrArg ((m ((c : Thread nD τ).loc main_arg6)) : S100x200.Idx → EReal) (funext fun ax => Fin.ext ?_)
  match ax with
  | ⟨0, _⟩ => show win0_6.index t (0 : Fin 2) * 100 + 1 * a.val = a.val; rw [f6_0]; omega
  | ⟨1, _⟩ => show win0_6.index t (1 : Fin 2) * 200 + 1 * b.val = b.val; rw [f6_1]; omega

/-- Window 7's block is the whole array at every point: an entry of the block is that entry of main_arg7. -/
theorem blk7_apply (c : Dev nD) (t : Fin cfg0.N) (j : Fin 200) :
    (iblk m c 7 t : Vec Ideal S200 .f32) (ix1 j) = ((m ((c : Thread nD τ).loc main_arg7)) : S200.Idx → EReal) (ix1 j) := by
  obtain ⟨f0_0, f0_1, f1_0, f1_1, f1_2, f2_0, f2_1, f3_0, f4_0, f4_1, f5_0, f6_0, f6_1, f7_0, f8_0, f8_1, f9_0, f10_0, f10_1, f11_0, f11_1⟩ := idx_facts t
  unfold iblk
  rw [View.read_apply]
  show V m c main_arg7 _ = _
  rw [V_main_arg7 m c]
  refine congrArg ((m ((c : Thread nD τ).loc main_arg7)) : S200.Idx → EReal) (funext fun ax => Fin.ext ?_)
  match ax with
  | ⟨0, _⟩ => show win0_7.index t (0 : Fin 1) * 200 + 1 * j.val = j.val; rw [f7_0]; omega

/-- Window 8's block is the whole array at every point: an entry of the block is that entry of main_arg8. -/
theorem blk8_apply (c : Dev nD) (t : Fin cfg0.N) (a : Fin 200) (b : Fin 2) :
    (iblk m c 8 t : Vec Ideal S200x2 .bf16) (ix2 a b) = ((m ((c : Thread nD τ).loc main_arg8)) : S200x2.Idx → EReal) (ix2 a b) := by
  obtain ⟨f0_0, f0_1, f1_0, f1_1, f1_2, f2_0, f2_1, f3_0, f4_0, f4_1, f5_0, f6_0, f6_1, f7_0, f8_0, f8_1, f9_0, f10_0, f10_1, f11_0, f11_1⟩ := idx_facts t
  unfold iblk
  rw [View.read_apply]
  show V m c main_v3 _ = _
  rw [V_main_v3 m c]
  refine congrArg ((m ((c : Thread nD τ).loc main_arg8)) : S200x2.Idx → EReal) (funext fun ax => Fin.ext ?_)
  match ax with
  | ⟨0, _⟩ => show win0_8.index t (0 : Fin 2) * 200 + 1 * a.val = a.val; rw [f8_0]; omega
  | ⟨1, _⟩ => show win0_8.index t (1 : Fin 2) * 2 + 1 * b.val = b.val; rw [f8_1]; omega

/-- Window 9's block is the whole array at every point: an entry of the block is that entry of main_arg9. -/
theorem blk9_apply (c : Dev nD) (t : Fin cfg0.N) (j : Fin 2) :
    (iblk m c 9 t : Vec Ideal S2 .f32) (ix1 j) = ((m ((c : Thread nD τ).loc main_arg9)) : S2.Idx → EReal) (ix1 j) := by
  obtain ⟨f0_0, f0_1, f1_0, f1_1, f1_2, f2_0, f2_1, f3_0, f4_0, f4_1, f5_0, f6_0, f6_1, f7_0, f8_0, f8_1, f9_0, f10_0, f10_1, f11_0, f11_1⟩ := idx_facts t
  unfold iblk
  rw [View.read_apply]
  show V m c main_arg9 _ = _
  rw [V_main_arg9 m c]
  refine congrArg ((m ((c : Thread nD τ).loc main_arg9)) : S2.Idx → EReal) (funext fun ax => Fin.ext ?_)
  match ax with
  | ⟨0, _⟩ => show win0_9.index t (0 : Fin 1) * 2 + 1 * j.val = j.val; rw [f9_0]; omega

/-! ## What the body stores, at an entry -/

/-- The network's weights as the arguments hold them. -/
abbrev Wm (c : Dev nD) : Weights :=
  weightsOf (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9))

/-- The slice of draw s out of the [1024, 10, 200] block, read at (p, 0, k), is the block at (p, s, k). -/
theorem ld_draw (x1 : Vec Ideal S1024x10x200 .f32) (o : ℕ)
    (inb : ∀ a, (![0, o, 0] : Fin 3 → ℕ) a + S1024x1x200.size a ≤ S1024x10x200.size a) (s : Fin 10) (hs : s.val = o)
    (p : Fin 1024) (k : Fin 200) :
    View.ld x1 (Rect.unit (s := S1024x10x200) ![0, o, 0] S1024x1x200.size inb) (ix3 p (0 : Fin 1) k) = x1 (ix3 p s k) := by
  show x1 ((Rect.unit (s := S1024x10x200) ![0, o, 0] S1024x1x200.size inb).idx (ix3 p (0 : Fin 1) k)) = _
  refine congrArg x1 (funext fun ax => Fin.ext ?_)
  match ax with
  | ⟨0, _⟩ => show 0 + 1 * p.val = p.val; omega
  | ⟨1, _⟩ => show o + 1 * 0 = s.val; omega
  | ⟨2, _⟩ => show 0 + 1 * k.val = k.val; omega

/-- The running maximum the body keeps, at (p, q): the sample weights of row p of the blocks. -/
theorem stored_samples_apply (x0 : Vec Ideal S1024x200 .f32) (x1 : Vec Ideal S1024x10x200 .f32) (x2 : Vec Ideal S200x100 .bf16) (x3 : Vec Ideal S100 .f32) (x4 : Vec Ideal S100x100 .bf16) (x5 : Vec Ideal S100 .f32) (x6 : Vec Ideal S100x200 .bf16) (x7 : Vec Ideal S200 .f32)
    (W : Weights) (hw1 : ∀ a b, x2 (ix2 a b) = W.w1 a b) (hb1 : ∀ j, x3 (ix1 j) = W.b1 j)
    (hw2 : ∀ a b, x4 (ix2 a b) = W.w2 a b) (hb2 : ∀ j, x5 (ix1 j) = W.b2 j)
    (hwl : ∀ a b, x6 (ix2 a b) = W.wl a b) (hbl : ∀ j, x7 (ix1 j) = W.bl j) (p : Fin 1024) (q : Fin 200) :
    (maximumf (maximumf (maximumf (maximumf (maximumf (maximumf (maximumf (maximumf (maximumf (softBlk (logitsBlk x0 x2 x3 x4 x5 x6 x7) (View.ld x1 r0_6)) (softBlk (logitsBlk x0 x2 x3 x4 x5 x6 x7) (View.ld x1 r0_7))) (softBlk (logitsBlk x0 x2 x3 x4 x5 x6 x7) (View.ld x1 r0_8))) (softBlk (logitsBlk x0 x2 x3 x4 x5 x6 x7) (View.ld x1 r0_9))) (softBlk (logitsBlk x0 x2 x3 x4 x5 x6 x7) (View.ld x1 r0_10))) (softBlk (logitsBlk x0 x2 x3 x4 x5 x6 x7) (View.ld x1 r0_11))) (softBlk (logitsBlk x0 x2 x3 x4 x5 x6 x7) (View.ld x1 r0_12))) (softBlk (logitsBlk x0 x2 x3 x4 x5 x6 x7) (View.ld x1 r0_13))) (softBlk (logitsBlk x0 x2 x3 x4 x5 x6 x7) (View.ld x1 r0_14))) (softBlk (logitsBlk x0 x2 x3 x4 x5 x6 x7) (View.ld x1 r0_15))) (ix2 p q)
      = samples W (fun k => x0 (ix2 p k)) (fun s k => x1 (ix3 p s k)) q := by
  refine (maxBlk_apply (logitsBlk x0 x2 x3 x4 x5 x6 x7) (View.ld x1 r0_6) (View.ld x1 r0_7) (View.ld x1 r0_8) (View.ld x1 r0_9) (View.ld x1 r0_10) (View.ld x1 r0_11) (View.ld x1 r0_12) (View.ld x1 r0_13) (View.ld x1 r0_14) (View.ld x1 r0_15)
    (fun s k => x1 (ix3 p s k)) p
    (ld_draw x1 0 _ 0 rfl p) (ld_draw x1 1 _ 1 rfl p) (ld_draw x1 2 _ 2 rfl p) (ld_draw x1 3 _ 3 rfl p) (ld_draw x1 4 _ 4 rfl p) (ld_draw x1 5 _ 5 rfl p) (ld_draw x1 6 _ 6 rfl p) (ld_draw x1 7 _ 7 rfl p) (ld_draw x1 8 _ 8 rfl p) (ld_draw x1 9 _ 9 rfl p) q).trans ?_
  unfold samples
  rw [show (fun k => logitsBlk x0 x2 x3 x4 x5 x6 x7 (ix2 p k)) = logits W (fun k => x0 (ix2 p k)) from
    funext fun k => logitsBlk_apply x0 x2 x3 x4 x5 x6 x7 W hw1 hb1 hw2 hb2 hwl hbl p k]

/-- The stored sample-weight block at (p, q). -/
theorem out11_apply (x0 : Vec Ideal S1024x200 .f32) (x1 : Vec Ideal S1024x10x200 .f32) (x2 : Vec Ideal S200x100 .bf16) (x3 : Vec Ideal S100 .f32) (x4 : Vec Ideal S100x100 .bf16) (x5 : Vec Ideal S100 .f32) (x6 : Vec Ideal S100x200 .bf16) (x7 : Vec Ideal S200 .f32) (x8 : Vec Ideal S200x2 .bf16) (x9 : Vec Ideal S2 .f32)
    (W : Weights) (hw1 : ∀ a b, x2 (ix2 a b) = W.w1 a b) (hb1 : ∀ j, x3 (ix1 j) = W.b1 j)
    (hw2 : ∀ a b, x4 (ix2 a b) = W.w2 a b) (hb2 : ∀ j, x5 (ix1 j) = W.b2 j)
    (hwl : ∀ a b, x6 (ix2 a b) = W.wl a b) (hbl : ∀ j, x7 (ix1 j) = W.bl j) (p : Fin 1024) (q : Fin 200) :
    out0_11 x0 x1 x2 x3 x4 x5 x6 x7 x8 x9 (ix2 p q)
      = samples W (fun k => x0 (ix2 p k)) (fun s k => x1 (ix3 p s k)) q := by
  unfold out0_11
  rw [View.canon_unit_zero hz2]
  simp only [View.ld_unit_zero (S := S1024x200) hz2, View.ld_unit_zero (S := S200x100) hz2, View.ld_unit_zero (S := S100) hz1,
    View.ld_unit_zero (S := S100x100) hz2, View.ld_unit_zero (S := S100x200) hz2, View.ld_unit_zero (S := S200) hz1,
    View.ld_unit_zero (S := S200x2) hz2, View.ld_unit_zero (S := S2) hz1]
  rw [pay_logits, pay_samples]
  exact stored_samples_apply x0 x1 x2 x3 x4 x5 x6 x7 W hw1 hb1 hw2 hb2 hwl hbl p q

/-- The stored prediction block at (p, q). -/
theorem out10_apply (x0 : Vec Ideal S1024x200 .f32) (x1 : Vec Ideal S1024x10x200 .f32) (x2 : Vec Ideal S200x100 .bf16) (x3 : Vec Ideal S100 .f32) (x4 : Vec Ideal S100x100 .bf16) (x5 : Vec Ideal S100 .f32) (x6 : Vec Ideal S100x200 .bf16) (x7 : Vec Ideal S200 .f32) (x8 : Vec Ideal S200x2 .bf16) (x9 : Vec Ideal S2 .f32)
    (W : Weights) (hw1 : ∀ a b, x2 (ix2 a b) = W.w1 a b) (hb1 : ∀ j, x3 (ix1 j) = W.b1 j)
    (hw2 : ∀ a b, x4 (ix2 a b) = W.w2 a b) (hb2 : ∀ j, x5 (ix1 j) = W.b2 j)
    (hwl : ∀ a b, x6 (ix2 a b) = W.wl a b) (hbl : ∀ j, x7 (ix1 j) = W.bl j)
    (hwo : ∀ a b, x8 (ix2 a b) = W.wo a b) (hbo : ∀ j, x9 (ix1 j) = W.bo j) (p : Fin 1024) (q : Fin 2) :
    out0_10 x0 x1 x2 x3 x4 x5 x6 x7 x8 x9 (ix2 p q)
      = preds W (fun k => x0 (ix2 p k)) (fun s k => x1 (ix3 p s k)) q := by
  unfold out0_10
  rw [View.canon_unit_zero hz2]
  simp only [View.ld_unit_zero (S := S1024x200) hz2, View.ld_unit_zero (S := S200x100) hz2, View.ld_unit_zero (S := S100) hz1,
    View.ld_unit_zero (S := S100x100) hz2, View.ld_unit_zero (S := S100x200) hz2, View.ld_unit_zero (S := S200) hz1,
    View.ld_unit_zero (S := S200x2) hz2, View.ld_unit_zero (S := S2) hz1]
  rw [pay_logits, pay_preds]
  refine (predsBlk_apply x0 _ x8 x9 W hwo hbo p q).trans ?_
  unfold preds
  refine congrArg (fun f : Fin 2 → EReal => softmax f q) (funext fun j =>
    dense_congr (fun k => ?_) (fun _ _ => rfl) (fun _ => rfl) j)
  exact congrArg (fun v : EReal => x0 (ix2 p k) * v)
    (stored_samples_apply x0 x1 x2 x3 x4 x5 x6 x7 W hw1 hb1 hw2 hb2 hwl hbl p k)

/-- The row functions depend on the row of x and the row's draws entry by entry. -/
theorem rows_congr (W : Weights) (x x' : Fin 200 → EReal) (U U' : Fin 10 → Fin 200 → EReal)
    (hx : ∀ k, x k = x' k) (hU : ∀ s k, U s k = U' s k) :
    (∀ q, samples W x U q = samples W x' U' q) ∧ (∀ q, preds W x U q = preds W x' U' q) := by
  rw [show x = x' from funext hx, show U = U' from funext fun s => funext (hU s)]
  exact ⟨fun _ => rfl, fun _ => rfl⟩

/-! ## The blocks tile the arrays -/

theorem mem_blk10 (t : Fin cfg0.N) (i : S32768x2.Idx) :
    i ∈ ((cfg0.win 10).blk t).view.set ↔ ∀ a : Fin 2, win0_10.index t a * S1024x2.size a ≤ (i a).val
      ∧ (i a).val < win0_10.index t a * S1024x2.size a + S1024x2.size a := by
  show i ∈ ((View.whole main_v4_0).slice (win0_10.rect t)).set ↔ _
  rw [View.set_slice_whole, Rect.mem_set_unit]
  exact Iff.rfl

theorem mem_blk11 (t : Fin cfg0.N) (i : S32768x200.Idx) :
    i ∈ ((cfg0.win 11).blk t).view.set ↔ ∀ a : Fin 2, win0_11.index t a * S1024x200.size a ≤ (i a).val
      ∧ (i a).val < win0_11.index t a * S1024x200.size a + S1024x200.size a := by
  show i ∈ ((View.whole main_v4_1).slice (win0_11.rect t)).set ↔ _
  rw [View.set_slice_whole, Rect.mem_set_unit]
  exact Iff.rfl

/-- Row r of the predictions lies in the block of point r / 1024. -/
theorem cover10 (i : S32768x2.Idx) :
    ∃ t : Fin cfg0.N, (cfg0.win 10).flush t = true ∧ i ∈ ((cfg0.win 10).blk t).view.set := by
  have hi0 : (i 0).val < 32768 := (i 0).isLt
  have hi1 : (i 1).val < 2 := (i 1).isLt
  obtain ⟨t, ht⟩ : ∃ t : Fin cfg0.N, t.val = (i 0).val / 1024 :=
    ⟨⟨(i 0).val / 1024, by rw [show cfg0.N = 32 from N_0]; omega⟩, rfl⟩
  obtain ⟨f0_0, f0_1, f1_0, f1_1, f1_2, f2_0, f2_1, f3_0, f4_0, f4_1, f5_0, f6_0, f6_1, f7_0, f8_0, f8_1, f9_0, f10_0, f10_1, f11_0, f11_1⟩ := idx_facts t
  refine ⟨t, flush0_10 t, ?_⟩
  rw [mem_blk10]
  intro a
  match a with
  | ⟨0, _⟩ =>
    show win0_10.index t (0 : Fin 2) * 1024 ≤ (i 0).val ∧ (i 0).val < win0_10.index t (0 : Fin 2) * 1024 + 1024
    rw [f10_0, ht]; omega
  | ⟨1, _⟩ =>
    show win0_10.index t (1 : Fin 2) * 2 ≤ (i 1).val ∧ (i 1).val < win0_10.index t (1 : Fin 2) * 2 + 2
    rw [f10_1]; omega

/-- Row r of the sample weights lies in the block of point r / 1024. -/
theorem cover11 (i : S32768x200.Idx) :
    ∃ t : Fin cfg0.N, (cfg0.win 11).flush t = true ∧ i ∈ ((cfg0.win 11).blk t).view.set := by
  have hi0 : (i 0).val < 32768 := (i 0).isLt
  have hi1 : (i 1).val < 200 := (i 1).isLt
  obtain ⟨t, ht⟩ : ∃ t : Fin cfg0.N, t.val = (i 0).val / 1024 :=
    ⟨⟨(i 0).val / 1024, by rw [show cfg0.N = 32 from N_0]; omega⟩, rfl⟩
  obtain ⟨f0_0, f0_1, f1_0, f1_1, f1_2, f2_0, f2_1, f3_0, f4_0, f4_1, f5_0, f6_0, f6_1, f7_0, f8_0, f8_1, f9_0, f10_0, f10_1, f11_0, f11_1⟩ := idx_facts t
  refine ⟨t, flush0_11 t, ?_⟩
  rw [mem_blk11]
  intro a
  match a with
  | ⟨0, _⟩ =>
    show win0_11.index t (0 : Fin 2) * 1024 ≤ (i 0).val ∧ (i 0).val < win0_11.index t (0 : Fin 2) * 1024 + 1024
    rw [f11_0, ht]; omega
  | ⟨1, _⟩ =>
    show win0_11.index t (1 : Fin 2) * 200 ≤ (i 1).val ∧ (i 1).val < win0_11.index t (1 : Fin 2) * 200 + 200
    rw [f11_1]; omega

/-! ## What each point writes back, and the arrays after the run -/

/-- What point t writes back to result window 10 is block t of the array of row functions. -/
theorem flushed10_eq (c : Dev nD) (t : Fin cfg0.N) :
    (dats m 0 c).flushed 10 t = ((cfg0.win 10).blk t).view.read (Elt Ideal) (predsArr (Wm m c) ((m ((c : Thread nD τ).loc main_arg0)) : S32768x200.Idx → EReal) ((m ((c : Thread nD τ).loc main_arg1)) : S32768x10x200.Idx → EReal)) := by
  show (cfg0.win 10).cut (grid0.coords t) ((dats m 0 c).after 10 t) = _
  rw [after0_10]
  obtain ⟨f0_0, f0_1, f1_0, f1_1, f1_2, f2_0, f2_1, f3_0, f4_0, f4_1, f5_0, f6_0, f6_1, f7_0, f8_0, f8_1, f9_0, f10_0, f10_1, f11_0, f11_1⟩ := idx_facts t
  have hN : t.val < 32 := lt_of_lt_of_eq t.isLt (show cfg0.N = 32 from N_0)
  refine funext fun (y : S1024x2.Idx) => ?_
  obtain ⟨p, q, rfl⟩ : ∃ (p : Fin 1024) (q : Fin 2), y = ix2 p q := ⟨y 0, y 1, eq_ix2 y⟩
  have hemb : ((cfg0.win 10).blk t).view.emb (ix2 p q) = ix2 (⟨t.val * 1024 + p.val, by omega⟩ : Fin 32768) q :=
    funext fun ax => Fin.ext (by
      match ax with
      | ⟨0, _⟩ => show win0_10.index t (0 : Fin 2) * 1024 + 1 * p.val = t.val * 1024 + p.val; rw [f10_0]; omega
      | ⟨1, _⟩ => show win0_10.index t (1 : Fin 2) * 2 + 1 * q.val = q.val; rw [f10_1]; omega)
  show out0_10 (iblk m c 0 t) (iblk m c 1 t) (iblk m c 2 t) (iblk m c 3 t) (iblk m c 4 t) (iblk m c 5 t) (iblk m c 6 t) (iblk m c 7 t) (iblk m c 8 t) (iblk m c 9 t) (ix2 p q) = _
  rw [View.read_apply, hemb, predsArr_apply]
  refine (out10_apply (iblk m c 0 t) (iblk m c 1 t) (iblk m c 2 t) (iblk m c 3 t) (iblk m c 4 t) (iblk m c 5 t) (iblk m c 6 t) (iblk m c 7 t) (iblk m c 8 t) (iblk m c 9 t) (Wm m c)
    (blk2_apply m c t) (blk3_apply m c t) (blk4_apply m c t) (blk5_apply m c t) (blk6_apply m c t) (blk7_apply m c t) (blk8_apply m c t) (blk9_apply m c t) p q).trans ?_
  exact (rows_congr _ _ _ _ _ (fun k => blk0_apply m c t p k _ rfl) (fun s k => blk1_apply m c t p s k _ rfl)).2 q

/-- What point t writes back to result window 11 is block t of the array of row functions. -/
theorem flushed11_eq (c : Dev nD) (t : Fin cfg0.N) :
    (dats m 0 c).flushed 11 t = ((cfg0.win 11).blk t).view.read (Elt Ideal) (samplesArr (Wm m c) ((m ((c : Thread nD τ).loc main_arg0)) : S32768x200.Idx → EReal) ((m ((c : Thread nD τ).loc main_arg1)) : S32768x10x200.Idx → EReal)) := by
  show (cfg0.win 11).cut (grid0.coords t) ((dats m 0 c).after 11 t) = _
  rw [after0_11]
  obtain ⟨f0_0, f0_1, f1_0, f1_1, f1_2, f2_0, f2_1, f3_0, f4_0, f4_1, f5_0, f6_0, f6_1, f7_0, f8_0, f8_1, f9_0, f10_0, f10_1, f11_0, f11_1⟩ := idx_facts t
  have hN : t.val < 32 := lt_of_lt_of_eq t.isLt (show cfg0.N = 32 from N_0)
  refine funext fun (y : S1024x200.Idx) => ?_
  obtain ⟨p, q, rfl⟩ : ∃ (p : Fin 1024) (q : Fin 200), y = ix2 p q := ⟨y 0, y 1, eq_ix2 y⟩
  have hemb : ((cfg0.win 11).blk t).view.emb (ix2 p q) = ix2 (⟨t.val * 1024 + p.val, by omega⟩ : Fin 32768) q :=
    funext fun ax => Fin.ext (by
      match ax with
      | ⟨0, _⟩ => show win0_11.index t (0 : Fin 2) * 1024 + 1 * p.val = t.val * 1024 + p.val; rw [f11_0]; omega
      | ⟨1, _⟩ => show win0_11.index t (1 : Fin 2) * 200 + 1 * q.val = q.val; rw [f11_1]; omega)
  show out0_11 (iblk m c 0 t) (iblk m c 1 t) (iblk m c 2 t) (iblk m c 3 t) (iblk m c 4 t) (iblk m c 5 t) (iblk m c 6 t) (iblk m c 7 t) (iblk m c 8 t) (iblk m c 9 t) (ix2 p q) = _
  rw [View.read_apply, hemb, samplesArr_apply]
  refine (out11_apply (iblk m c 0 t) (iblk m c 1 t) (iblk m c 2 t) (iblk m c 3 t) (iblk m c 4 t) (iblk m c 5 t) (iblk m c 6 t) (iblk m c 7 t) (iblk m c 8 t) (iblk m c 9 t) (Wm m c)
    (blk2_apply m c t) (blk3_apply m c t) (blk4_apply m c t) (blk5_apply m c t) (blk6_apply m c t) (blk7_apply m c t) p q).trans ?_
  exact (rows_congr _ _ _ _ _ (fun k => blk0_apply m c t p k _ rfl) (fun s k => blk1_apply m c t p s k _ rfl)).1 q

/-- The prediction array after the run. -/
theorem final10 (c : Dev nD) : (dats m 0 c).arrAt 10 cfg0.N = predsArr (Wm m c) ((m ((c : Thread nD τ).loc main_arg0)) : S32768x200.Idx → EReal) ((m ((c : Thread nD τ).loc main_arg1)) : S32768x10x200.Idx → EReal) :=
  (dats m 0 c).arrAt_eq_of_cover 10 _ (fun t _ => flushed10_eq m c t) cover10

/-- The sample-weight array after the run. -/
theorem final11 (c : Dev nD) : (dats m 0 c).arrAt 11 cfg0.N = samplesArr (Wm m c) ((m ((c : Thread nD τ).loc main_arg0)) : S32768x200.Idx → EReal) ((m ((c : Thread nD τ).loc main_arg1)) : S32768x10x200.Idx → EReal) :=
  (dats m 0 c).arrAt_eq_of_cover 11 _ (fun t _ => flushed11_eq m c t) cover11

/-- The kernel's run, read: both result arrays at the row functions of the arguments, the arguments unchanged. -/
theorem run : θ_run defs (onTc (τ := τ) (main (F := Ideal))) ⟨m, fun _ => 0, ρ⟩ fun r => ∀ c : Dev nD,
      r.2.mem ((c : Thread nD τ).loc main_v4_0) = predsArr (Wm m c) ((m ((c : Thread nD τ).loc main_arg0)) : S32768x200.Idx → EReal) ((m ((c : Thread nD τ).loc main_arg1)) : S32768x10x200.Idx → EReal)
      ∧ r.2.mem ((c : Thread nD τ).loc main_v4_1) = samplesArr (Wm m c) ((m ((c : Thread nD τ).loc main_arg0)) : S32768x200.Idx → EReal) ((m ((c : Thread nD τ).loc main_arg1)) : S32768x10x200.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨((h c).1 10).trans (final10 m c), ((h c).1 11).trans (final11 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c))),
      ((h c).2 main_arg6 (Pipeline.mem_restRefs_of main_arg6 (by decide) (by decide))).trans (V_main_arg6 m c),
      ((h c).1 7).trans (((dats m 0 c).arrAt_in 7 rfl _).trans ((A_eq m c 7).trans (V_main_arg7 m c))),
      ((h c).2 main_arg8 (Pipeline.mem_restRefs_of main_arg8 (by decide) (by decide))).trans (V_main_arg8 m c),
      ((h c).1 9).trans (((dats m 0 c).arrAt_in 9 rfl _).trans ((A_eq m c 9).trans (V_main_arg9 m c)))⟩)
    (run_main m ρ)

end Cert.KernelIdeal.Hand

end
-- ==== Proof.LibHostMaxForms.lean ====
/-
  The host's reduce with a maximum body over ONE axis of a rank-2 or rank-3 array, read at an index written by its
  coordinates: the maximum, folded from the initial value, of the operand along that axis.  (The general statement
  folds over the reduced index with the coordinate inserted; here the inserted index is spelt out.)
-/
import Idealize.ShloMosaic.PureOps.Ideal.Laws
import Idealize.ShloMosaic.Lib.ValueIdx

namespace Idealize.ShloMosaic.ValueIdx

open Idealize.ShloMosaic

variable {A B C : ℕ}

/-- (r, s) with k put back on the last axis is (r, s, k). -/
theorem lift3_last (h : (⟨3, ![A, B, C]⟩ : Shape).Reduces [2] (⟨2, ![A, B]⟩ : Shape)) (r : Fin A) (s : Fin B)
    (k : Fin ((⟨3, ![A, B, C]⟩ : Shape).size 2)) : h.lift (ix2 r s) k = ix3 r s (⟨k.val, k.isLt⟩ : Fin C) := by
  funext c; apply Fin.ext
  fin_cases c <;> rfl

/-- (r, q) with s put back on the middle axis is (r, s, q). -/
theorem lift3_middle (h : (⟨3, ![A, B, C]⟩ : Shape).Reduces [1] (⟨2, ![A, C]⟩ : Shape)) (r : Fin A) (q : Fin C)
    (s : Fin ((⟨3, ![A, B, C]⟩ : Shape).size 1)) : h.lift (ix2 r q) s = ix3 r (⟨s.val, s.isLt⟩ : Fin B) q := by
  funext c; apply Fin.ext
  fin_cases c <;> rfl

/-- r with k put back on the last axis is (r, k). -/
theorem lift2_last (h : (⟨2, ![A, B]⟩ : Shape).Reduces [1] (⟨1, ![A]⟩ : Shape)) (r : Fin A)
    (k : Fin ((⟨2, ![A, B]⟩ : Shape).size 1)) : h.lift (ix1 r) k = ix2 r (⟨k.val, k.isLt⟩ : Fin B) := by
  funext c; apply Fin.ext
  fin_cases c <;> rfl

/-- A rank-3 array reduced by maximum over its last axis, at (r, s). -/
theorem hostReduceMax3_last (x : (⟨3, ![A, B, C]⟩ : Shape).Idx → EReal) (init : (⟨0, ![]⟩ : Shape).Idx → EReal)
    (h' : (⟨3, ![A, B, C]⟩ : Shape).ReducesTo [2] (⟨2, ![A, B]⟩ : Shape))
    (h : (⟨3, ![A, B, C]⟩ : Shape).Reduces [2] (⟨2, ![A, B]⟩ : Shape)) (hu : 0 < (⟨0, ![]⟩ : Shape).numel)
    (r : Fin A) (s : Fin B) :
    Host.reduce (FloatOps.maximumf (F := Ideal) (φ := .f32)) x init h' hu (ix2 r s)
      = (Finset.univ : Finset (Fin C)).fold max (init (Shape.Idx.first hu)) fun k => x (ix3 r s k) := by
  rw [Host.reduce_eq_fold_single _ x init h' h hu]
  exact congrArg (fun f : Fin C → EReal => (Finset.univ : Finset (Fin C)).fold max (init (Shape.Idx.first hu)) f)
    (funext fun k => congrArg x (lift3_last h r s k))

/-- A rank-3 array reduced by maximum over its middle axis, at (r, q). -/
theorem hostReduceMax3_middle (x : (⟨3, ![A, B, C]⟩ : Shape).Idx → EReal) (init : (⟨0, ![]⟩ : Shape).Idx → EReal)
    (h' : (⟨3, ![A, B, C]⟩ : Shape).ReducesTo [1] (⟨2, ![A, C]⟩ : Shape))
    (h : (⟨3, ![A, B, C]⟩ : Shape).Reduces [1] (⟨2, ![A, C]⟩ : Shape)) (hu : 0 < (⟨0, ![]⟩ : Shape).numel)
    (r : Fin A) (q : Fin C) :
    Host.reduce (FloatOps.maximumf (F := Ideal) (φ := .f32)) x init h' hu (ix2 r q)
      = (Finset.univ : Finset (Fin B)).fold max (init (Shape.Idx.first hu)) fun s => x (ix3 r s q) := by
  rw [Host.reduce_eq_fold_single _ x init h' h hu]
  exact congrArg (fun f : Fin B → EReal => (Finset.univ : Finset (Fin B)).fold max (init (Shape.Idx.first hu)) f)
    (funext fun s => congrArg x (lift3_middle h r q s))

/-- A rank-2 array reduced by maximum over its last axis, at r. -/
theorem hostReduceMax2_last (x : (⟨2, ![A, B]⟩ : Shape).Idx → EReal) (init : (⟨0, ![]⟩ : Shape).Idx → EReal)
    (h' : (⟨2, ![A, B]⟩ : Shape).ReducesTo [1] (⟨1, ![A]⟩ : Shape))
    (h : (⟨2, ![A, B]⟩ : Shape).Reduces [1] (⟨1, ![A]⟩ : Shape)) (hu : 0 < (⟨0, ![]⟩ : Shape).numel) (r : Fin A) :
    Host.reduce (FloatOps.maximumf (F := Ideal) (φ := .f32)) x init h' hu (ix1 r)
      = (Finset.univ : Finset (Fin B)).fold max (init (Shape.Idx.first hu)) fun k => x (ix2 r k) := by
  rw [Host.reduce_eq_fold_single _ x init h' h hu]
  exact congrArg (fun f : Fin B → EReal => (Finset.univ : Finset (Fin B)).fold max (init (Shape.Idx.first hu)) f)
    (funext fun k => congrArg x (lift2_last h r k))

end Idealize.ShloMosaic.ValueIdx
-- ==== Proof.RefValue.lean ====
/-
  The reference, stage by stage, is the network of Spec.

  Each stage of the reference's run is read at an index written by its coordinates and identified with the row
  function it computes: the two rectified layers and the logits of row r; the noisy logits of draw s (the reference
  negates where the specification negates, and divides by one half where the specification doubles); a row's
  maximum (the reference takes one more maximum with minus infinity); the softmax of a draw; the maximum over the
  ten draws; the output layer on x * weights and its two-class softmax.
-/
import proofs.«123612_j79577154060806_2_alg».proof.Proof.Gen.ReferenceIdeal.Read
import proofs.«123612_j79577154060806_2_alg».proof.Proof.Spec
import proofs.«123612_j79577154060806_2_alg».proof.Proof.LibHostMaxForms

noncomputable section

namespace Cert.ReferenceIdeal.Hand

open Idealize.ShloMosaic Idealize.ShloMosaic.ValueIdx
open Cert.ReferenceIdeal Cert.ReferenceIdeal.Gen Cert.ReferenceIdeal.Read Cert.Selector

/-- The first rectified layer at (r, j). -/
theorem layer1 (x0 : (⟨S32768x200, .f32⟩ : BufTy).Contents (Elt Ideal)) (x2 : (⟨S200x100, .f32⟩ : BufTy).Contents (Elt Ideal)) (x3 : (⟨S100, .f32⟩ : BufTy).Contents (Elt Ideal)) (r : Fin 32768) (j : Fin 100) :
    val_main_v4 (F := Ideal) x0 x2 x3 (ix2 r j)
      = max (dense (fun k => x0 (ix2 r k)) (fun a b => x2 (ix2 a b)) (fun j => x3 (ix1 j)) j) 0 := by
  have e1 : ∀ k, lidx_main_v0 (ix2 r j) k = ix2 r k := fun k => funext fun a => Fin.ext (by
    match a with
    | ⟨0, _⟩ => rfl
    | ⟨1, _⟩ => rfl)
  have e2 : ∀ k, ridx_main_v0 (ix2 r j) k = ix2 k j := fun k => funext fun a => Fin.ext (by
    match a with
    | ⟨0, _⟩ => rfl
    | ⟨1, _⟩ => rfl)
  have e3 : idx_main_v1 (idx_main_v2 (ix2 r j)) = ix1 j := funext fun a => Fin.ext (by
    match a with
    | ⟨0, _⟩ => rfl)
  rw [val_main_v4_apply, val_main_v3_apply, val_main_v0_apply, val_main_v2_apply, val_main_v1_apply,
    val_main_call0_v0_apply, val_main_call0_cst_apply]
  simp only [e1, e2, e3]
  show max (_ + _) (Ideal.ofBits .f32 0x00000000#32) = _
  rw [Ideal.ofBits_zero_f32]
  rfl

/-- The second rectified layer at (r, j). -/
theorem layer2 (x0 : (⟨S32768x200, .f32⟩ : BufTy).Contents (Elt Ideal)) (x2 : (⟨S200x100, .f32⟩ : BufTy).Contents (Elt Ideal)) (x3 : (⟨S100, .f32⟩ : BufTy).Contents (Elt Ideal)) (x4 : (⟨S100x100, .f32⟩ : BufTy).Contents (Elt Ideal)) (x5 : (⟨S100, .f32⟩ : BufTy).Contents (Elt Ideal)) (r : Fin 32768) (j : Fin 100) :
    val_main_v9 (F := Ideal) x0 x2 x3 x4 x5 (ix2 r j)
      = max (dense (fun j => max (dense (fun k => x0 (ix2 r k)) (fun a b => x2 (ix2 a b)) (fun j => x3 (ix1 j)) j) 0)
          (fun a b => x4 (ix2 a b)) (fun j => x5 (ix1 j)) j) 0 := by
  have e1 : ∀ k, lidx_main_v5 (ix2 r j) k = ix2 r k := fun k => funext fun a => Fin.ext (by
    match a with
    | ⟨0, _⟩ => rfl
    | ⟨1, _⟩ => rfl)
  have e2 : ∀ k, ridx_main_v5 (ix2 r j) k = ix2 k j := fun k => funext fun a => Fin.ext (by
    match a with
    | ⟨0, _⟩ => rfl
    | ⟨1, _⟩ => rfl)
  have e3 : idx_main_v6 (idx_main_v7 (ix2 r j)) = ix1 j := funext fun a => Fin.ext (by
    match a with
    | ⟨0, _⟩ => rfl)
  rw [val_main_v9_apply, val_main_v8_apply, val_main_v5_apply, val_main_v7_apply, val_main_v6_apply,
    val_main_call1_v0_apply, val_main_call1_cst_apply]
  simp only [e1, e2, e3, layer1]
  show max (_ + _) (Ideal.ofBits .f32 0x00000000#32) = _
  rw [Ideal.ofBits_zero_f32]
  rfl

/-- The logits at (r, q). -/
theorem logitsR (x0 : (⟨S32768x200, .f32⟩ : BufTy).Contents (Elt Ideal)) (x2 : (⟨S200x100, .f32⟩ : BufTy).Contents (Elt Ideal)) (x3 : (⟨S100, .f32⟩ : BufTy).Contents (Elt Ideal)) (x4 : (⟨S100x100, .f32⟩ : BufTy).Contents (Elt Ideal)) (x5 : (⟨S100, .f32⟩ : BufTy).Contents (Elt Ideal)) (x6 : (⟨S100x200, .f32⟩ : BufTy).Contents (Elt Ideal)) (x7 : (⟨S200, .f32⟩ : BufTy).Contents (Elt Ideal)) (x8 : (⟨S200x2, .f32⟩ : BufTy).Contents (Elt Ideal)) (x9 : (⟨S2, .f32⟩ : BufTy).Contents (Elt Ideal)) (r : Fin 32768) (q : Fin 200) :
    val_main_v13 (F := Ideal) x0 x2 x3 x4 x5 x6 x7 (ix2 r q) = logits (weightsOf x2 x3 x4 x5 x6 x7 x8 x9) (fun k => x0 (ix2 r k)) q := by
  have e1 : ∀ k, lidx_main_v10 (ix2 r q) k = ix2 r k := fun k => funext fun a => Fin.ext (by
    match a with
    | ⟨0, _⟩ => rfl
    | ⟨1, _⟩ => rfl)
  have e2 : ∀ k, ridx_main_v10 (ix2 r q) k = ix2 k q := fun k => funext fun a => Fin.ext (by
    match a with
    | ⟨0, _⟩ => rfl
    | ⟨1, _⟩ => rfl)
  have e3 : idx_main_v11 (idx_main_v12 (ix2 r q)) = ix1 q := funext fun a => Fin.ext (by
    match a with
    | ⟨0, _⟩ => rfl)
  rw [val_main_v13_apply, val_main_v10_apply, val_main_v12_apply, val_main_v11_apply]
  simp only [e1, e2, e3, layer2]
  rfl

/-- The noisy logits of draw s at (r, s, k). -/
theorem noisyR (x0 : (⟨S32768x200, .f32⟩ : BufTy).Contents (Elt Ideal)) (x1 : (⟨S32768x10x200, .f32⟩ : BufTy).Contents (Elt Ideal)) (x2 : (⟨S200x100, .f32⟩ : BufTy).Contents (Elt Ideal)) (x3 : (⟨S100, .f32⟩ : BufTy).Contents (Elt Ideal)) (x4 : (⟨S100x100, .f32⟩ : BufTy).Contents (Elt Ideal)) (x5 : (⟨S100, .f32⟩ : BufTy).Contents (Elt Ideal)) (x6 : (⟨S100x200, .f32⟩ : BufTy).Contents (Elt Ideal)) (x7 : (⟨S200, .f32⟩ : BufTy).Contents (Elt Ideal)) (x8 : (⟨S200x2, .f32⟩ : BufTy).Contents (Elt Ideal)) (x9 : (⟨S2, .f32⟩ : BufTy).Contents (Elt Ideal)) (r : Fin 32768) (s : Fin 10) (k : Fin 200) :
    val_main_v23 (F := Ideal) x0 x1 x2 x3 x4 x5 x6 x7 (ix3 r s k)
      = noisy (logits (weightsOf x2 x3 x4 x5 x6 x7 x8 x9) (fun k => x0 (ix2 r k))) (fun k => x1 (ix3 r s k)) k := by
  have e : idx_main_v19 (idx_main_v20 (ix3 r s k)) = ix2 r k := funext fun a => Fin.ext (by
    match a with
    | ⟨0, _⟩ => rfl
    | ⟨1, _⟩ => rfl)
  simp only [val_main_v23_apply, val_main_v21_apply, val_main_v18_apply, val_main_v17_apply, val_main_v16_apply,
    val_main_v15_apply, val_main_v14_apply, val_main_call2_v4_apply, val_main_call2_v3_apply, val_main_cst_0_apply,
    val_main_call2_v2_apply, val_main_call2_v1_apply, val_main_call2_v0_apply, val_main_cst_apply,
    val_main_v20_apply, val_main_v19_apply, e, logitsR x0 x2 x3 x4 x5 x6 x7 x8 x9, val_main_v22_apply,
    val_main_cst_1_apply]
  show Ideal.div (-(Ideal.log (-(Ideal.log (min (Ideal.ofBits .f32 0x3F800000#32)
      (max (Ideal.ofBits .f32 0x34000000#32) (x1 (ix3 r s k))))))) + _) (Ideal.ofBits .f32 0x3F000000#32) = _
  rw [div_half]
  rfl

/-- The maximum of draw s's noisy logits over the features, at (r, s). -/
theorem rowMaxR (x0 : (⟨S32768x200, .f32⟩ : BufTy).Contents (Elt Ideal)) (x1 : (⟨S32768x10x200, .f32⟩ : BufTy).Contents (Elt Ideal)) (x2 : (⟨S200x100, .f32⟩ : BufTy).Contents (Elt Ideal)) (x3 : (⟨S100, .f32⟩ : BufTy).Contents (Elt Ideal)) (x4 : (⟨S100x100, .f32⟩ : BufTy).Contents (Elt Ideal)) (x5 : (⟨S100, .f32⟩ : BufTy).Contents (Elt Ideal)) (x6 : (⟨S100x200, .f32⟩ : BufTy).Contents (Elt Ideal)) (x7 : (⟨S200, .f32⟩ : BufTy).Contents (Elt Ideal)) (x8 : (⟨S200x2, .f32⟩ : BufTy).Contents (Elt Ideal)) (x9 : (⟨S2, .f32⟩ : BufTy).Contents (Elt Ideal)) (r : Fin 32768) (s : Fin 10) :
    val_main_v26 (F := Ideal) x0 x1 x2 x3 x4 x5 x6 x7 (ix2 r s)
      = rowMax (noisy (logits (weightsOf x2 x3 x4 x5 x6 x7 x8 x9) (fun k => x0 (ix2 r k))) (fun k => x1 (ix3 r s k))) := by
  rw [val_main_v26_apply, val_main_v25_apply, val_main_cst_3_apply]
  unfold val_main_v24
  rw [hostReduceMax3_last _ _ reducesTo_S32768x10x200_S32768x10_d2 (by decide) h_S_ r s]
  simp only [noisyR x0 x1 x2 x3 x4 x5 x6 x7 x8 x9]
  show max (Ideal.ofBits .f32 0xFF800000#32) (Finset.fold max (Ideal.ofBits .f32 0xFF800000#32) _ _) = _
  rw [max_negInf]
  rfl

/-- The softmax of draw s at (r, s, k). -/
theorem softR (x0 : (⟨S32768x200, .f32⟩ : BufTy).Contents (Elt Ideal)) (x1 : (⟨S32768x10x200, .f32⟩ : BufTy).Contents (Elt Ideal)) (x2 : (⟨S200x100, .f32⟩ : BufTy).Contents (Elt Ideal)) (x3 : (⟨S100, .f32⟩ : BufTy).Contents (Elt Ideal)) (x4 : (⟨S100x100, .f32⟩ : BufTy).Contents (Elt Ideal)) (x5 : (⟨S100, .f32⟩ : BufTy).Contents (Elt Ideal)) (x6 : (⟨S100x200, .f32⟩ : BufTy).Contents (Elt Ideal)) (x7 : (⟨S200, .f32⟩ : BufTy).Contents (Elt Ideal)) (x8 : (⟨S200x2, .f32⟩ : BufTy).Contents (Elt Ideal)) (x9 : (⟨S2, .f32⟩ : BufTy).Contents (Elt Ideal)) (r : Fin 32768) (s : Fin 10) (k : Fin 200) :
    val_main_v34 (F := Ideal) x0 x1 x2 x3 x4 x5 x6 x7 (ix3 r s k)
      = softmax (noisy (logits (weightsOf x2 x3 x4 x5 x6 x7 x8 x9) (fun k => x0 (ix2 r k))) (fun k => x1 (ix3 r s k))) k := by
  have e1 : idx_main_v27 (idx_main_v28 (ix3 r s k)) = ix2 r s := funext fun a => Fin.ext (by
    match a with
    | ⟨0, _⟩ => rfl
    | ⟨1, _⟩ => rfl)
  have e2 : idx_main_v32 (idx_main_v33 (ix3 r s k)) = ix2 r s := funext fun a => Fin.ext (by
    match a with
    | ⟨0, _⟩ => rfl
    | ⟨1, _⟩ => rfl)
  have e3 : ∀ k, idx_main_v31 (ix2 r s) k = ix3 r s k := fun k => funext fun a => Fin.ext (by
    match a with
    | ⟨0, _⟩ => rfl
    | ⟨1, _⟩ => rfl
    | ⟨2, _⟩ => rfl)
  simp only [val_main_v34_apply, val_main_v30_apply, val_main_v29_apply, val_main_v28_apply, val_main_v27_apply,
    val_main_v33_apply, val_main_v32_apply, val_main_v31_apply, val_main_cst_4_apply, e1, e2, e3,
    rowMaxR x0 x1 x2 x3 x4 x5 x6 x7 x8 x9, noisyR x0 x1 x2 x3 x4 x5 x6 x7 x8 x9]
  show Ideal.div (Ideal.exp (_ - _)) (Ideal.ofBits .f32 0x00000000#32 + ∑ k' : Fin 200, Ideal.exp (_ - _)) = _
  rw [Ideal.ofBits_zero_f32, zero_add]
  rfl

/-- The sample weights at (r, q). -/
theorem samplesR (x0 : (⟨S32768x200, .f32⟩ : BufTy).Contents (Elt Ideal)) (x1 : (⟨S32768x10x200, .f32⟩ : BufTy).Contents (Elt Ideal)) (x2 : (⟨S200x100, .f32⟩ : BufTy).Contents (Elt Ideal)) (x3 : (⟨S100, .f32⟩ : BufTy).Contents (Elt Ideal)) (x4 : (⟨S100x100, .f32⟩ : BufTy).Contents (Elt Ideal)) (x5 : (⟨S100, .f32⟩ : BufTy).Contents (Elt Ideal)) (x6 : (⟨S100x200, .f32⟩ : BufTy).Contents (Elt Ideal)) (x7 : (⟨S200, .f32⟩ : BufTy).Contents (Elt Ideal)) (x8 : (⟨S200x2, .f32⟩ : BufTy).Contents (Elt Ideal)) (x9 : (⟨S2, .f32⟩ : BufTy).Contents (Elt Ideal)) (r : Fin 32768) (q : Fin 200) :
    val_main_v35 (F := Ideal) x0 x1 x2 x3 x4 x5 x6 x7 (ix2 r q) = samplesArr (weightsOf x2 x3 x4 x5 x6 x7 x8 x9) x0 x1 (ix2 r q) := by
  unfold val_main_v35
  rw [hostReduceMax3_middle _ _ reducesTo_S32768x10x200_S32768x200_d1 (by decide) h_S_ r q]
  simp only [softR x0 x1 x2 x3 x4 x5 x6 x7 x8 x9]
  rfl

/-- The output layer at (r, j). -/
theorem outR (x0 : (⟨S32768x200, .f32⟩ : BufTy).Contents (Elt Ideal)) (x1 : (⟨S32768x10x200, .f32⟩ : BufTy).Contents (Elt Ideal)) (x2 : (⟨S200x100, .f32⟩ : BufTy).Contents (Elt Ideal)) (x3 : (⟨S100, .f32⟩ : BufTy).Contents (Elt Ideal)) (x4 : (⟨S100x100, .f32⟩ : BufTy).Contents (Elt Ideal)) (x5 : (⟨S100, .f32⟩ : BufTy).Contents (Elt Ideal)) (x6 : (⟨S100x200, .f32⟩ : BufTy).Contents (Elt Ideal)) (x7 : (⟨S200, .f32⟩ : BufTy).Contents (Elt Ideal)) (x8 : (⟨S200x2, .f32⟩ : BufTy).Contents (Elt Ideal)) (x9 : (⟨S2, .f32⟩ : BufTy).Contents (Elt Ideal)) (r : Fin 32768) (j : Fin 2) :
    val_main_v40 (F := Ideal) x0 x1 x2 x3 x4 x5 x6 x7 x8 x9 (ix2 r j)
      = dense (fun k => x0 (ix2 r k) * samples (weightsOf x2 x3 x4 x5 x6 x7 x8 x9) (fun k => x0 (ix2 r k)) (fun (s : Fin 10) (k : Fin 200) => x1 (ix3 r s k)) k) (fun a b => x8 (ix2 a b)) (fun j => x9 (ix1 j)) j := by
  have e1 : ∀ k, lidx_main_v37 (ix2 r j) k = ix2 r k := fun k => funext fun a => Fin.ext (by
    match a with
    | ⟨0, _⟩ => rfl
    | ⟨1, _⟩ => rfl)
  have e2 : ∀ k, ridx_main_v37 (ix2 r j) k = ix2 k j := fun k => funext fun a => Fin.ext (by
    match a with
    | ⟨0, _⟩ => rfl
    | ⟨1, _⟩ => rfl)
  have e3 : idx_main_v38 (idx_main_v39 (ix2 r j)) = ix1 j := funext fun a => Fin.ext (by
    match a with
    | ⟨0, _⟩ => rfl)
  simp only [val_main_v40_apply, val_main_v37_apply, val_main_v36_apply, val_main_v39_apply, val_main_v38_apply,
    e1, e2, e3, samplesR x0 x1 x2 x3 x4 x5 x6 x7 x8 x9]
  rfl

/-- The maximum of the two output logits at r. -/
theorem rowMax2R (x0 : (⟨S32768x200, .f32⟩ : BufTy).Contents (Elt Ideal)) (x1 : (⟨S32768x10x200, .f32⟩ : BufTy).Contents (Elt Ideal)) (x2 : (⟨S200x100, .f32⟩ : BufTy).Contents (Elt Ideal)) (x3 : (⟨S100, .f32⟩ : BufTy).Contents (Elt Ideal)) (x4 : (⟨S100x100, .f32⟩ : BufTy).Contents (Elt Ideal)) (x5 : (⟨S100, .f32⟩ : BufTy).Contents (Elt Ideal)) (x6 : (⟨S100x200, .f32⟩ : BufTy).Contents (Elt Ideal)) (x7 : (⟨S200, .f32⟩ : BufTy).Contents (Elt Ideal)) (x8 : (⟨S200x2, .f32⟩ : BufTy).Contents (Elt Ideal)) (x9 : (⟨S2, .f32⟩ : BufTy).Contents (Elt Ideal)) (r : Fin 32768) :
    val_main_v43 (F := Ideal) x0 x1 x2 x3 x4 x5 x6 x7 x8 x9 (ix1 r)
      = rowMax (dense (fun k => x0 (ix2 r k) * samples (weightsOf x2 x3 x4 x5 x6 x7 x8 x9) (fun k => x0 (ix2 r k)) (fun (s : Fin 10) (k : Fin 200) => x1 (ix3 r s k)) k) (fun a b => x8 (ix2 a b)) (fun j => x9 (ix1 j))) := by
  rw [val_main_v43_apply, val_main_v42_apply, val_main_cst_7_apply]
  unfold val_main_v41
  rw [hostReduceMax2_last _ _ reducesTo_S32768x2_S32768_d1 (by decide) h_S_ r]
  simp only [outR x0 x1 x2 x3 x4 x5 x6 x7 x8 x9]
  show max (Ideal.ofBits .f32 0xFF800000#32) (Finset.fold max (Ideal.ofBits .f32 0xFF800000#32) _ _) = _
  rw [max_negInf]
  rfl

/-- The predictions at (r, q). -/
theorem predsR (x0 : (⟨S32768x200, .f32⟩ : BufTy).Contents (Elt Ideal)) (x1 : (⟨S32768x10x200, .f32⟩ : BufTy).Contents (Elt Ideal)) (x2 : (⟨S200x100, .f32⟩ : BufTy).Contents (Elt Ideal)) (x3 : (⟨S100, .f32⟩ : BufTy).Contents (Elt Ideal)) (x4 : (⟨S100x100, .f32⟩ : BufTy).Contents (Elt Ideal)) (x5 : (⟨S100, .f32⟩ : BufTy).Contents (Elt Ideal)) (x6 : (⟨S100x200, .f32⟩ : BufTy).Contents (Elt Ideal)) (x7 : (⟨S200, .f32⟩ : BufTy).Contents (Elt Ideal)) (x8 : (⟨S200x2, .f32⟩ : BufTy).Contents (Elt Ideal)) (x9 : (⟨S2, .f32⟩ : BufTy).Contents (Elt Ideal)) (r : Fin 32768) (q : Fin 2) :
    val_main_v51 (F := Ideal) x0 x1 x2 x3 x4 x5 x6 x7 x8 x9 (ix2 r q) = predsArr (weightsOf x2 x3 x4 x5 x6 x7 x8 x9) x0 x1 (ix2 r q) := by
  have e1 : idx_main_v44 (idx_main_v45 (ix2 r q)) = ix1 r := funext fun a => Fin.ext (by
    match a with
    | ⟨0, _⟩ => rfl)
  have e2 : idx_main_v49 (idx_main_v50 (ix2 r q)) = ix1 r := funext fun a => Fin.ext (by
    match a with
    | ⟨0, _⟩ => rfl)
  have e3 : ∀ k, idx_main_v48 (ix1 r) k = ix2 r k := fun k => funext fun a => Fin.ext (by
    match a with
    | ⟨0, _⟩ => rfl
    | ⟨1, _⟩ => rfl)
  simp only [val_main_v51_apply, val_main_v47_apply, val_main_v46_apply, val_main_v45_apply, val_main_v44_apply,
    val_main_v50_apply, val_main_v49_apply, val_main_v48_apply, val_main_cst_8_apply, e1, e2, e3,
    rowMax2R x0 x1 x2 x3 x4 x5 x6 x7 x8 x9, outR x0 x1 x2 x3 x4 x5 x6 x7 x8 x9]
  show Ideal.div (Ideal.exp (_ - _)) (Ideal.ofBits .f32 0x00000000#32 + ∑ k' : Fin 2, Ideal.exp (_ - _)) = _
  rw [Ideal.ofBits_zero_f32, zero_add]
  rfl

/-! ## The two results as whole arrays -/

theorem samples_eq (x0 : (⟨S32768x200, .f32⟩ : BufTy).Contents (Elt Ideal)) (x1 : (⟨S32768x10x200, .f32⟩ : BufTy).Contents (Elt Ideal)) (x2 : (⟨S200x100, .f32⟩ : BufTy).Contents (Elt Ideal)) (x3 : (⟨S100, .f32⟩ : BufTy).Contents (Elt Ideal)) (x4 : (⟨S100x100, .f32⟩ : BufTy).Contents (Elt Ideal)) (x5 : (⟨S100, .f32⟩ : BufTy).Contents (Elt Ideal)) (x6 : (⟨S100x200, .f32⟩ : BufTy).Contents (Elt Ideal)) (x7 : (⟨S200, .f32⟩ : BufTy).Contents (Elt Ideal)) (x8 : (⟨S200x2, .f32⟩ : BufTy).Contents (Elt Ideal)) (x9 : (⟨S2, .f32⟩ : BufTy).Contents (Elt Ideal)) :
    val_main_v35 (F := Ideal) x0 x1 x2 x3 x4 x5 x6 x7 = samplesArr (weightsOf x2 x3 x4 x5 x6 x7 x8 x9) x0 x1 := by
  funext i
  obtain ⟨r, q, rfl⟩ : ∃ (r : Fin 32768) (q : Fin 200), i = ix2 r q := ⟨i 0, i 1, eq_ix2 i⟩
  exact samplesR x0 x1 x2 x3 x4 x5 x6 x7 x8 x9 r q

theorem preds_eq (x0 : (⟨S32768x200, .f32⟩ : BufTy).Contents (Elt Ideal)) (x1 : (⟨S32768x10x200, .f32⟩ : BufTy).Contents (Elt Ideal)) (x2 : (⟨S200x100, .f32⟩ : BufTy).Contents (Elt Ideal)) (x3 : (⟨S100, .f32⟩ : BufTy).Contents (Elt Ideal)) (x4 : (⟨S100x100, .f32⟩ : BufTy).Contents (Elt Ideal)) (x5 : (⟨S100, .f32⟩ : BufTy).Contents (Elt Ideal)) (x6 : (⟨S100x200, .f32⟩ : BufTy).Contents (Elt Ideal)) (x7 : (⟨S200, .f32⟩ : BufTy).Contents (Elt Ideal)) (x8 : (⟨S200x2, .f32⟩ : BufTy).Contents (Elt Ideal)) (x9 : (⟨S2, .f32⟩ : BufTy).Contents (Elt Ideal)) :
    val_main_v51 (F := Ideal) x0 x1 x2 x3 x4 x5 x6 x7 x8 x9 = predsArr (weightsOf x2 x3 x4 x5 x6 x7 x8 x9) x0 x1 := by
  funext i
  obtain ⟨r, q, rfl⟩ : ∃ (r : Fin 32768) (q : Fin 2), i = ix2 r q := ⟨i 0, i 1, eq_ix2 i⟩
  exact predsR x0 x1 x2 x3 x4 x5 x6 x7 x8 x9 r q

end Cert.ReferenceIdeal.Hand

end
-- ==== Proof.lean ====
/-
  The kernel and its reference compute one function of their ten arguments, row by row, on the extended reals.

  Both take a row x of 200 features through two rectified affine layers and a third affine layer to 200 logits, add to
  the logits the Gumbel noise of each of ten uniform draws clipped into [eps, 1], scale by two, take the softmax over
  the features, and keep, feature by feature, the largest of the ten softmax values (the sample weights, the second
  result); the first result is the softmax over two classes of the output layer applied to x times the weights.
  The kernel does this on 32 blocks of 1024 rows with the weight matrices narrowed to bf16 (the identity on the
  extended reals), its matrix products sums into a zero accumulator; the reference does it on whole arrays with
  dot_general.  Where the two spell a step differently the steps agree on every extended real: the kernel subtracts
  from zero where the reference negates; the kernel doubles where the reference divides by one half; the reference
  takes one more maximum with minus infinity before subtracting a row's maximum; the kernel chains nine binary maxima
  where the reference reduces over the ten draws from minus infinity.  None of these needs the inputs finite, so the
  precondition is not opened.

  Spec states the row functions and these laws; RefValue reads the reference's run stage by stage as the row
  functions; KernelPayload reads the body's arithmetic on a block entry by entry, and KernelValue carries the blocks
  to the two result arrays over the frame's run.  The three frames are the programs' own runs; the idealization
  rewrote nothing, so preserves has nothing to state.
-/
import proofs.«123612_j79577154060806_2_alg».proof.Defs
import proofs.«123612_j79577154060806_2_alg».proof.Proof.Gen.Kernel
import proofs.«123612_j79577154060806_2_alg».proof.Proof.Gen.Kernel.Frame
import proofs.«123612_j79577154060806_2_alg».proof.Proof.Gen.KernelIdeal
import proofs.«123612_j79577154060806_2_alg».proof.Proof.Gen.KernelIdeal.Frame
import proofs.«123612_j79577154060806_2_alg».proof.Proof.Gen.ReferenceIdeal
import proofs.«123612_j79577154060806_2_alg».proof.Proof.Gen.ReferenceIdeal.Run
import proofs.«123612_j79577154060806_2_alg».proof.Proof.Gen.ReferenceIdeal.Read
import proofs.«123612_j79577154060806_2_alg».proof.Proof.Gen.Pre_finite_inputs
import proofs.«123612_j79577154060806_2_alg».proof.Proof.KernelValue
import proofs.«123612_j79577154060806_2_alg».proof.Proof.RefValue
import Idealize.ShloMosaic.Adequacy
import Idealize.ShloMosaic.Init

noncomputable section

namespace Cert.Proof

open Idealize.ShloMosaic Idealize.ShloMosaic.TcCoe Idealize.SL.Sem Cert.Selector

/-- The word-level kernel runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference's run, its two results dropped. -/
theorem frame_ri : Cert.frame_ReferenceIdeal := fun m ρ _ =>
  (θ_run Cert.ReferenceIdeal.defs _ _).mono (fun _ h c => (h c).2.2)
    (Cert.ReferenceIdeal.Value.run (F := Ideal) m ρ)

/-- The idealization rewrote no operation. -/
theorem preserves : Cert.preserves_Kernel_KernelIdeal := trivial

/-- From memories that agree on the ten arguments both programs end with the prediction array and the sample-weight
    array of the same row functions of those arguments. -/
theorem algebraic : Cert.algebraic_KernelIdeal_ReferenceIdeal := by
  intro m ρ m' ρ' _ hagree
  refine ⟨_, _, Cert.KernelIdeal.Hand.run m ρ, ?_⟩
  refine (θ_run Cert.ReferenceIdeal.defs _ _).mono (fun _ h c => ?_)
    (Cert.ReferenceIdeal.Value.run (F := Ideal) m' ρ')
  obtain ⟨a0, a1, a2, a3, a4, a5, a6, a7, a8, a9⟩ := hagree c
  refine ⟨(h c).1.trans ?_, (h c).2.1.trans ?_, (h c).2.2⟩
  · rw [Cert.ReferenceIdeal.Read.val_main_v51_eq, Cert.ReferenceIdeal.Hand.preds_eq, a0, a1, a2, a3, a4, a5, a6, a7, a8, a9]
  · rw [Cert.ReferenceIdeal.Read.val_main_v35_eq,
      Cert.ReferenceIdeal.Hand.samples_eq _ _ _ _ _ _ _ _
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9)),
      a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
